-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x1 .f32) (main_arg12 : FVec F S1 .f32) (main_arg13 : FVec F S128x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_v48 main_v49 main_v50

def fn_part1 {F : FTy → Type} [FloatOps F] (main_arg6 : FVec F S3x128 .f32) (main_arg7 : FVec F S3x128x128 .f32) (main_arg8 : FVec F S3x128 .f32) (main_arg9 : FVec F S128x128 .f32) (main_arg10 : FVec F S128 .f32) (main_arg11 : FVec F S128x1 .f32) (main_arg12 : FVec F S1 .f32) (main_arg13 : FVec F S128x1 .f32) (main_arg14 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x4 .f32) (main_arg1 : IVec S2x1600000 32) (main_arg2 : IVec S100000 32) (main_arg3 : FVec F S4x128 .f32) (main_arg4 : FVec F S128 .f32) (main_arg5 : FVec F S3x128x128 .f32) (main_arg6 : FVec F S3x128 .f32) (main_arg7 : FVec F S3x128x128 .f32) (main_arg8 : FVec F S3x128 .f32) (main_arg9 : FVec F S128x128 .f32) (main_arg10 : FVec F S128 .f32) (main_arg11 : FVec F S128x1 .f32) (main_arg12 : FVec F S1 .f32) (main_arg13 : FVec F S128x1 .f32) (main_arg14 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_arg14 main_v13 main_v16
-- ==== Kernel.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S100000x128 : Shape := ⟨2, ![100000, 128]⟩
abbrev S5000x4 : Shape := ⟨2, ![5000, 4]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S2000x128 : Shape := ⟨2, ![2000, 128]⟩
abbrev S100000x1 : Shape := ⟨2, ![100000, 1]⟩
abbrev S2000 : Shape := ⟨1, ![2000]⟩
abbrev S2000x1 : Shape := ⟨2, ![2000, 1]⟩
abbrev S1x1 : Shape := ⟨2, ![1, 1]⟩

abbrev nBuf : Space → Nat
  | .hbm => 116
  | .vmem => 45
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S100000, .i32⟩
  | .hbm, ⟨3, _⟩ => ⟨S4x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S3x128x128, .f32⟩
  | .hbm, ⟨8, _⟩ => ⟨S3x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S128x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S1x128, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S1x128x128, .f32⟩
  | .hbm, ⟨41, _⟩ => ⟨S128x128, .f32⟩
  | .hbm, ⟨42, _⟩ => ⟨S1x128x128, .f32⟩
  | .hbm, ⟨43, _⟩ => ⟨S128x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S1x128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128x128, .f32⟩
  | .hbm, ⟨89, _⟩ => ⟨S128x128, .f32⟩
  | .hbm, ⟨90, _⟩ => ⟨S1x128x128, .f32⟩
  | .hbm, ⟨91, _⟩ => ⟨S128x128, .f32⟩
  | .hbm, ⟨92, _⟩ => ⟨S100000x128, .f32⟩
  | .hbm, ⟨93, _⟩ => ⟨S_, .f32⟩
  | .hbm, ⟨94, _⟩ => ⟨S2000x128, .f32⟩
  | .hbm, ⟨95, _⟩ => ⟨S100000x1, .i32⟩
  | .hbm, ⟨96, _⟩ => ⟨S2000x128, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S2000, .f32⟩
  | .hbm, ⟨101, _⟩ => ⟨S100000x1, .i32⟩
  | .hbm, ⟨102, _⟩ => ⟨S2000, .f32⟩
  | .hbm, ⟨103, _⟩ => ⟨S_, .f32⟩
  | .hbm, ⟨104, _⟩ => ⟨S2000, .f32⟩
  | .hbm, ⟨105, _⟩ => ⟨S2000, .f32⟩
  | .hbm, ⟨106, _⟩ => ⟨S2000x1, .f32⟩
  | .hbm, ⟨107, _⟩ => ⟨S2000x128, .f32⟩
  | .hbm, ⟨108, _⟩ => ⟨S2000x128, .f32⟩
  | .hbm, ⟨109, _⟩ => ⟨S1x128, .f32⟩
  | .hbm, ⟨110, _⟩ => ⟨S1x1, .f32⟩
  | .hbm, ⟨111, _⟩ => ⟨S1x1, .f32⟩
  | .hbm, ⟨112, _⟩ => ⟨S2000x1, .f32⟩
  | .hbm, ⟨113, _⟩ => ⟨S2000x1, .f32⟩
  | .hbm, ⟨114, _⟩ => ⟨S2000, .f32⟩
  | .hbm, ⟨115, _⟩ => ⟨S2000, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S2000x128, .f32⟩
  | .local _ .vmem, ⟨37, _⟩ => ⟨S128x128, .f32⟩
  | .local _ .vmem, ⟨38, _⟩ => ⟨S1x128, .f32⟩
  | .local _ .vmem, ⟨39, _⟩ => ⟨S128x1, .f32⟩
  | .local _ .vmem, ⟨40, _⟩ => ⟨S1x1, .f32⟩
  | .local _ .vmem, ⟨41, _⟩ => ⟨S128x1, .f32⟩
  | .local _ .vmem, ⟨42, _⟩ => ⟨S1x1, .f32⟩
  | .local _ .vmem, ⟨43, _⟩ => ⟨S2000x1, .f32⟩
  | .local _ .vmem, ⟨44, _⟩ => ⟨S2000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_4 : Ref sig .tc := ⟨.hbm, 69, rfl⟩
abbrev main_v48 : Ref sig .tc := ⟨.hbm, 70, rfl⟩
abbrev main_v49 : Ref sig .tc := ⟨.hbm, 71, rfl⟩
abbrev main_c_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_8 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_10 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_v85 : Ref sig .tc := ⟨.hbm, 114, rfl⟩
abbrev main_v86 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2000x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S2000x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  dot_S5000x4_S4x128_S5000x128_1_0_0_1_n_n_wf : DotDims.WF S5000x4 S4x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S2000x128.size a
  hwx4_0 : ∀ i : grid4.Coords, EltTy.bits .f32 = 32 ∨ (Rect.block (s := S2000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S2000x1.size a ≤ S2000x1.size a
  hwx4_7 : ∀ i : grid4.Coords, EltTy.bits .f32 = 32 ∨ (Rect.block (s := S2000x1) S2000x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S2000x1.size a ≤ S2000x1.size a
  hwx4_8 : ∀ i : grid4.Coords, EltTy.bits .f32 = 32 ∨ (Rect.block (s := S2000x1) S2000x1.size (cc4_transform_8 i) (hinb4_8 i)).WholeWords (EltTy.packing .f32)

variable [Facts₀]

def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v80) S2000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84_0) S2000x1.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v84_1) S2000x1.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S2000x128 : Shape := ⟨2, ![2000, 128]⟩
abbrev S100000x1 : Shape := ⟨2, ![100000, 1]⟩
abbrev S2000 : Shape := ⟨1, ![2000]⟩
abbrev S2000x1 : Shape := ⟨2, ![2000, 1]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S100000x4, .f32⟩
  | 1 => ⟨S2x1600000, .i32⟩
  | 2 => ⟨S100000, .i32⟩
  | 3 => ⟨S4x128, .f32⟩
  | 4 => ⟨S128, .f32⟩
  | 5 => ⟨S3x128x128, .f32⟩
  | 6 => ⟨S3x128, .f32⟩
  | 7 => ⟨S3x128x128, .f32⟩
  | 8 => ⟨S3x128, .f32⟩
  | 9 => ⟨S128x128, .f32⟩
  | 10 => ⟨S128, .f32⟩
  | 11 => ⟨S128x1, .f32⟩
  | 12 => ⟨S1, .f32⟩
  | 13 => ⟨S128x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S1x128, .f32⟩
  | 21 => ⟨S100000x128, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S1x128x128, .f32⟩
  | 49 => ⟨S128x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000x128, .f32⟩
  | 73 => ⟨S1x128x128, .f32⟩
  | 74 => ⟨S128x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S1x128x128, .f32⟩
  | 85 => ⟨S128x128, .f32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x128, .f32⟩
  | 109 => ⟨S1x128x128, .f32⟩
  | 110 => ⟨S128x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128x128, .f32⟩
  | 121 => ⟨S128x128, .f32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x4, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S2000x128, .f32⟩
  | 5 => ⟨S100000x1, .i32⟩
  | 6 => ⟨S2000x128, .f32⟩
  | 7 => ⟨S_, .f32⟩
  | 8 => ⟨S100000, .f32⟩
  | 9 => ⟨S_, .f32⟩
  | 10 => ⟨S2000, .f32⟩
  | 11 => ⟨S100000x1, .i32⟩
  | 12 => ⟨S2000, .f32⟩
  | 13 => ⟨S_, .f32⟩
  | 14 => ⟨S2000, .f32⟩
  | 15 => ⟨S2000, .f32⟩
  | 16 => ⟨S2000x1, .f32⟩
  | 17 => ⟨S2000x128, .f32⟩
  | 18 => ⟨S2000x128, .f32⟩
  | 19 => ⟨S2000x128, .f32⟩
  | 20 => ⟨S1x128, .f32⟩
  | 21 => ⟨S2000x128, .f32⟩
  | 22 => ⟨S2000x128, .f32⟩
  | 23 => ⟨S_, .f32⟩
  | 24 => ⟨S2000x128, .f32⟩
  | 25 => ⟨S2000x128, .f32⟩
  | 26 => ⟨S2000x1, .f32⟩
  | 27 => ⟨S1x1, .f32⟩
  | 28 => ⟨S2000x1, .f32⟩
  | 29 => ⟨S2000x1, .f32⟩
  | 30 => ⟨S2000, .f32⟩
  | 31 => ⟨S2000x1, .f32⟩
  | 32 => ⟨S1x1, .f32⟩
  | 33 => ⟨S2000x1, .f32⟩
  | 34 => ⟨S2000x1, .f32⟩
  | 35 => ⟨S2000, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_c_1 : Ref sig .tc := ⟨.hbm, 59, rfl⟩
abbrev main_v37 : Ref sig .tc := ⟨.hbm, 60, rfl⟩
abbrev main_v38 : Ref sig .tc := ⟨.hbm, 61, rfl⟩
abbrev main_c_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call3_cst : Ref sig .tc := ⟨.hbm, 92, rfl⟩
abbrev main_call3_v0 : Ref sig .tc := ⟨.hbm, 93, rfl⟩
abbrev main_v65 : Ref sig .tc := ⟨.hbm, 94, rfl⟩
abbrev main_c_4 : Ref sig .tc := ⟨.hbm, 95, rfl⟩
abbrev main_v66 : Ref sig .tc := ⟨.hbm, 96, rfl⟩
abbrev main_v67 : Ref sig .tc := ⟨.hbm, 97, rfl⟩
abbrev main_c_5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_6 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call4_cst : Ref sig .tc := ⟨.hbm, 117, rfl⟩
abbrev main_call4_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_call5_cst : Ref sig .tc := ⟨.hbm, 128, rfl⟩
abbrev main_call5_v0 : Ref sig .tc := ⟨.hbm, 129, rfl⟩
abbrev main_v94 : Ref sig .tc := ⟨.hbm, 130, rfl⟩
abbrev main_cst_7 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_8 : Ref sig .tc := ⟨.hbm, 135, rfl⟩
abbrev main_v98 : Ref sig .tc := ⟨.hbm, 136, rfl⟩
abbrev main_cst_9 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_10 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_call6_cst : Ref sig .tc := ⟨.hbm, 151, rfl⟩
abbrev main_call6_v0 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S1x128_S2000x128_0_1 : S1x128.BroadcastsInDim S2000x128 (![0, 1] : Fin 2 → Fin S2000x128.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  shapeCasts_S2000x1_S2000 : S2000x1.ShapeCasts S2000
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

class Facts : Prop extends Facts₀ where

variable [Facts]
-- ==== Proof.KRun.lean ====
/-
  The kernel program's run with its two result arrays named.  The program is five pipelined regions among stretches of
  host operations; its buffers at each boundary are a fold from the launch memory (a host stretch applies its
  operations, a region replaces its output arrays by what its grid points wrote back).  Every weakly fair execution
  terminates without a fault, the arguments end as launched, and each result buffer ends at the last boundary's
  contents of that buffer.
-/
import proofs.«142797_j21234318312262_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch: the final state agrees with the last boundary's contents on every
    unscoped buffer, among them the two results; each argument is read back through the fold to its launch contents. -/
theorem run_results : θ_run defs (onTc (τ := τ) (main (F := F))) ⟨m, fun _ => 0, ρ⟩ (fun r => ∀ c : Dev nD,
      r.2.mem ((c.tc : Thread nD τ).loc main_v85) = W11 m ρ c (Proc.devRef .tc main_v85)
      ∧ r.2.mem ((c.tc : Thread nD τ).loc main_v86) = W11 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v85 (by decide)),
       h c _ (mem_uc main_v86 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.KernelIdeal.KRun

end
-- ==== Proof.Stages.lean ====
/-
  The network as whole-array stages on the extended reals, spelt with the host program's own operations.

  A node feature matrix h (100000 × 128) is produced by an input projection x·W + b, then three times replaced by
  relu(relu((h + A h)·W₁ + b₁)·W₂ + b₂), where A h sums, into each node, the rows of h at the sources of the edges that
  point to it (a gather of rows followed by a scatter-add).  The rows are then averaged per graph (a scatter-add of
  rows and of ones by graph id, the count clamped below by one), and a shared hidden layer with two scalar read-outs
  finishes.  Every stage here is the composition of array operations the reference performs, so that the reference's
  result is, by unfolding, the composition of these stages; the kernel's regions are shown to compute the same
  stages tile by tile.
-/
import proofs.«142797_j21234318312262_1_alg».proof.Proof.Gen.ReferenceIdeal
import Idealize.ShloMosaic.PureOps.Ideal

noncomputable section

namespace Cert.Stages

open Idealize.ShloMosaic Cert.ReferenceIdeal Cert.ReferenceIdeal.Gen

/-- The source node of every edge, a negative id wrapped once by the node count. -/
def srcIdx (ei : Vec Ideal S2x1600000 .i32) : Vec Ideal S1600000 .i32 :=
  select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)

/-- The destination node of every edge. -/
def dstIdx (ei : Vec Ideal S2x1600000 .i32) : Vec Ideal S1600000 .i32 :=
  shapeCast _ (extractStridedSlice S1x1600000 ![1, 0] ei slices_S2x1600000_S1x1600000_1_0) shapeCasts_S1x1600000_S1600000

/-- Neighbour aggregation: row i of the result is the sum of the rows of h at the sources of the edges into i. -/
def agg (ei : Vec Ideal S2x1600000 .i32) (h : FVec Ideal S100000x128 .f32) : FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (dstIdx ei)) (Host.gather gather_S100000x128_S1600000x1_S1600000x128_1_0_n_n_0_1_1128 h (broadcastInDim S1600000x1 ![0] bcast_S1600000_S1600000x1_0 (srcIdx ei)))

/-- A bias vector as the 1 × 128 row that is spread over the rows. -/
def biasRow (b : FVec Ideal S128 .f32) : FVec Ideal S1x128 .f32 := broadcastInDim S1x128 ![1] bcast_S128_S1x128_1 b

/-- The input projection x·W + B, the bias as a 1 × 128 row. -/
def projCore (x : FVec Ideal S100000x4 .f32) (w : FVec Ideal S4x128 .f32) (B : FVec Ideal S1x128 .f32) : FVec Ideal S100000x128 .f32 :=
  addf (Host.dotGeneral dot_S100000x4_S4x128_S100000x128_1_0_0_1_n_n none x w) (broadcastInDim S100000x128 ![0, 1] bcast_S1x128_S100000x128_0_1 B)

/-- The input projection x·W + b. -/
def proj (x : FVec Ideal S100000x4 .f32) (w : FVec Ideal S4x128 .f32) (b : FVec Ideal S128 .f32) : FVec Ideal S100000x128 .f32 :=
  projCore x w (biasRow b)

/-- One convolution's dense part on whole arrays: relu(relu((h + a)·W₁ + B₁)·W₂ + B₂), the biases as 1 × 128 rows. -/
def layerCore (h a : FVec Ideal S100000x128 .f32) (W1 : FVec Ideal S128x128 .f32) (B1 : FVec Ideal S1x128 .f32)
    (W2 : FVec Ideal S128x128 .f32) (B2 : FVec Ideal S1x128 .f32) : FVec Ideal S100000x128 .f32 :=
  maximumf (addf (Host.dotGeneral dot_S100000x128_S128x128_S100000x128_1_0_0_1_n_n none (maximumf (addf (Host.dotGeneral dot_S100000x128_S128x128_S100000x128_1_0_0_1_n_n none (addf h a) W1) (broadcastInDim S100000x128 ![0, 1] bcast_S1x128_S100000x128_0_1 B1)) (broadcastInDim S100000x128 ![] bcast_S_S100000x128 (constant S_ .f32 0x00000000#32))) W2) (broadcastInDim S100000x128 ![0, 1] bcast_S1x128_S100000x128_0_1 B2)) (broadcastInDim S100000x128 ![] bcast_S_S100000x128 (constant S_ .f32 0x00000000#32))

/-- Layer l's 128 × 128 weight out of a stack of three. -/
def w0 (A : FVec Ideal S3x128x128 .f32) : FVec Ideal S128x128 .f32 := shapeCast _ (extractStridedSlice S1x128x128 ![0, 0, 0] A slices_S3x128x128_S1x128x128_0_0_0) shapeCasts_S1x128x128_S128x128
def w1 (A : FVec Ideal S3x128x128 .f32) : FVec Ideal S128x128 .f32 := shapeCast _ (extractStridedSlice S1x128x128 ![1, 0, 0] A slices_S3x128x128_S1x128x128_1_0_0) shapeCasts_S1x128x128_S128x128
def w2 (A : FVec Ideal S3x128x128 .f32) : FVec Ideal S128x128 .f32 := shapeCast _ (extractStridedSlice S1x128x128 ![2, 0, 0] A slices_S3x128x128_S1x128x128_2_0_0) shapeCasts_S1x128x128_S128x128
/-- Layer l's bias vector out of a stack of three. -/
def b0 (A : FVec Ideal S3x128 .f32) : FVec Ideal S128 .f32 := shapeCast _ (extractStridedSlice S1x128 ![0, 0] A slices_S3x128_S1x128_0_0) shapeCasts_S1x128_S128
def b1 (A : FVec Ideal S3x128 .f32) : FVec Ideal S128 .f32 := shapeCast _ (extractStridedSlice S1x128 ![1, 0] A slices_S3x128_S1x128_1_0) shapeCasts_S1x128_S128
def b2 (A : FVec Ideal S3x128 .f32) : FVec Ideal S128 .f32 := shapeCast _ (extractStridedSlice S1x128 ![2, 0] A slices_S3x128_S1x128_2_0) shapeCasts_S1x128_S128

/-- One whole convolution: the dense part applied to h and its neighbour aggregate. -/
def conv (ei : Vec Ideal S2x1600000 .i32) (h : FVec Ideal S100000x128 .f32) (W1 : FVec Ideal S128x128 .f32) (B1 : FVec Ideal S1x128 .f32)
    (W2 : FVec Ideal S128x128 .f32) (B2 : FVec Ideal S1x128 .f32) : FVec Ideal S100000x128 .f32 :=
  layerCore h (agg ei h) W1 B1 W2 B2

/-- The mean of the node rows of each graph, the graph's node count clamped below by one. -/
def pool (batch : Vec Ideal S100000 .i32) (h : FVec Ideal S100000x128 .f32) : FVec Ideal S2000x128 .f32 :=
  Host.divf (Host.scatterAdd scatter_S2000x128_S100000x1_S100000x128_1_0_0_1 (broadcastInDim S2000x128 ![] bcast_S_S2000x128 (constant S_ .f32 0x00000000#32)) (broadcastInDim S100000x1 ![0] bcast_S100000_S100000x1_0 batch) h) (broadcastInDim S2000x128 ![0, 1] bcast_S2000x1_S2000x128_0_1 (broadcastInDim S2000x1 ![0] bcast_S2000_S2000x1_0 (maximumf (Host.scatterAdd scatter_S2000_S100000x1_S100000_n_0_0_1 (broadcastInDim S2000 ![] bcast_S_S2000 (constant S_ .f32 0x00000000#32)) (broadcastInDim S100000x1 ![0] bcast_S100000_S100000x1_0 batch) (broadcastInDim S100000 ![] bcast_S_S100000 (constant S_ .f32 0x3F800000#32))) (broadcastInDim S2000 ![] bcast_S_S2000 (constant S_ .f32 0x3F800000#32)))))

/-- The shared hidden layer of the read-out: relu(g·W + B), the bias as a 1 × 128 row. -/
def headHidden (g : FVec Ideal S2000x128 .f32) (sw : FVec Ideal S128x128 .f32) (SB : FVec Ideal S1x128 .f32) : FVec Ideal S2000x128 .f32 :=
  maximumf (addf (Host.dotGeneral dot_S2000x128_S128x128_S2000x128_1_0_0_1_n_n none g sw) (broadcastInDim S2000x128 ![0, 1] bcast_S1x128_S2000x128_0_1 SB)) (broadcastInDim S2000x128 ![] bcast_S_S2000x128 (constant S_ .f32 0x00000000#32))

/-- A bias scalar as the 1 × 1 array that is spread over the graphs. -/
def biasCell (b : FVec Ideal S1 .f32) : FVec Ideal S1x1 .f32 := broadcastInDim S1x1 ![1] bcast_S1_S1x1_1 b

/-- One scalar read-out per graph: g₂·w + B as a 2000 × 1 column. -/
def headOut (g2 : FVec Ideal S2000x128 .f32) (ew : FVec Ideal S128x1 .f32) (EB : FVec Ideal S1x1 .f32) : FVec Ideal S2000x1 .f32 :=
  addf (Host.dotGeneral dot_S2000x128_S128x1_S2000x1_1_0_0_1_n_n none g2 ew) (broadcastInDim S2000x1 ![0, 1] bcast_S1x1_S2000x1_0_1 EB)

/-- The column of read-outs as a vector. -/
def flat (v : FVec Ideal S2000x1 .f32) : FVec Ideal S2000 .f32 := shapeCast _ v shapeCasts_S2000x1_S2000

/-- The node features after the three convolutions. -/
def features (x : FVec Ideal S100000x4 .f32) (ei : Vec Ideal S2x1600000 .i32) (pw : FVec Ideal S4x128 .f32) (pb : FVec Ideal S128 .f32)
    (cw1 : FVec Ideal S3x128x128 .f32) (cb1 : FVec Ideal S3x128 .f32) (cw2 : FVec Ideal S3x128x128 .f32) (cb2 : FVec Ideal S3x128 .f32) :
    FVec Ideal S100000x128 .f32 :=
  conv ei (conv ei (conv ei (proj x pw pb) (w0 cw1) (biasRow (b0 cb1)) (w0 cw2) (biasRow (b0 cb2)))
    (w1 cw1) (biasRow (b1 cb1)) (w1 cw2) (biasRow (b1 cb2))) (w2 cw1) (biasRow (b2 cb1)) (w2 cw2) (biasRow (b2 cb2))

end Cert.Stages

end
-- ==== Proof.RefStages.lean ====
/-
  The reference's two results are the composition of the stages: the three convolutions of the projected features, the
  per-graph mean, the shared hidden layer, and one scalar read-out per graph for each of the two heads.
-/
import proofs.«142797_j21234318312262_1_alg».proof.Proof.Stages
import proofs.«142797_j21234318312262_1_alg».proof.Proof.Gen.ReferenceIdeal.Run

noncomputable section

namespace Cert.RefStages

open Idealize.ShloMosaic Idealize.ShloMosaic.TcCoe Idealize.SL.Sem Cert.ReferenceIdeal Cert.ReferenceIdeal.Gen Cert.Stages

/-- One read-out of the whole network as a function of the argument arrays. -/
def readout (x : FVec Ideal S100000x4 .f32) (ei : Vec Ideal S2x1600000 .i32) (batch : Vec Ideal S100000 .i32)
    (pw : FVec Ideal S4x128 .f32) (pb : FVec Ideal S128 .f32)
    (cw1 : FVec Ideal S3x128x128 .f32) (cb1 : FVec Ideal S3x128 .f32) (cw2 : FVec Ideal S3x128x128 .f32) (cb2 : FVec Ideal S3x128 .f32)
    (sw : FVec Ideal S128x128 .f32) (sb : FVec Ideal S128 .f32) (w : FVec Ideal S128x1 .f32) (b : FVec Ideal S1 .f32) : FVec Ideal S2000 .f32 :=
  flat (headOut (headHidden (pool batch (features x ei pw pb cw1 cb1 cw2 cb2)) sw (biasRow sb)) w (biasCell b))

set_option maxRecDepth 16384 in
theorem res0_eq (m : (ℓ : Loc nD τ sig) → Buf (Elt Ideal) ℓ) (c : Dev nD) :
    Cert.ReferenceIdeal.Value.res_main_v116 (F := Ideal) m c
      = readout (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v116 readout features conv
  rfl

set_option maxRecDepth 16384 in
theorem res1_eq (m : (ℓ : Loc nD τ sig) → Buf (Elt Ideal) ℓ) (c : Dev nD) :
    Cert.ReferenceIdeal.Value.res_main_v121 (F := Ideal) m c
      = readout (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg13))
          (m ((c.tc : Thread nD τ).loc main_arg14)) := by
  unfold Cert.ReferenceIdeal.Value.res_main_v121 readout features conv
  rfl

end Cert.RefStages

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.TileLaws.lean ====
/-
  The kernel's dense bodies read at one entry against the reference's dense stages read at one entry.

  Every dense body is built from one pattern: a row of a matrix times a weight matrix, plus a bias row, possibly
  clamped below by zero.  On the extended reals a change of float format does nothing, a product accumulated into
  zero is the plain sum over the contracted index, and spreading a 1 × n row over many rows reads that row.  So an
  entry (p, c) of a tile's result and the entry (r, c) of the whole-array stage are the same expression in the
  entries of row p of the tile and row r of the array: when those rows agree, so do the results.
-/
import proofs.«142797_j21234318312262_1_alg».proof.Proof.Stages
import proofs.«142797_j21234318312262_1_alg».proof.Proof.Gen.KernelIdeal
import proofs.«142797_j21234318312262_1_alg».proof.Proof.Gen.KernelIdeal.Skeleton
import proofs.«142797_j21234318312262_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.TileLaws

open Idealize.ShloMosaic Idealize.ShloMosaic.ValueIdx

/-- For dimension numbers with no batch axis whose free left axis is the first, the left operand's first coordinate
    is the output's first coordinate. -/
local macro "dot_lhs0 " D:term ", " Sl:term : term =>
  `(fun j k => by
    unfold DotDims.lhsIdx
    rw [dif_neg (show ¬(0 : Fin (Shape.rank $Sl)) ∈ DotDims.lhsBatch $D by decide),
      dif_pos (show (0 : Fin (Shape.rank $Sl)) ∈ DotDims.lhsNonContracting $D by decide)]
    rfl)

/-- … and the right operand's second coordinate is the output's second coordinate. -/
local macro "dot_rhs1 " D:term ", " Sr:term : term =>
  `(fun j k => by
    unfold DotDims.rhsIdx
    rw [dif_neg (show ¬(1 : Fin (Shape.rank $Sr)) ∈ DotDims.rhsBatch $D by decide),
      dif_pos (show (1 : Fin (Shape.rank $Sr)) ∈ DotDims.rhsNonContracting $D by decide)]
    rfl)

/-! ## The products at an entry -/

section Dots
variable {φ₁ φ₂ : FTy}

/-- A 5000 × 4 tile times a 4 × 128 matrix, accumulated into zero. -/
theorem kdot4 (l : FVec Ideal Cert.KernelIdeal.S5000x4 φ₁) (w : FVec Ideal Cert.KernelIdeal.S4x128 φ₂) (p : Fin 5000) (c : Fin 128) :
    FloatOps.matmul Cert.KernelIdeal.dot_S5000x4_S4x128_S5000x128_1_0_0_1_n_n none l w
        (constant Cert.KernelIdeal.S5000x128 .f32 0x00000000#32) (ix2 p c)
      = ∑ k : Fin 4, l (ix2 p k) * w (ix2 k c) :=
  Cert.LibPlainDot.matmul_zero_apply (M := 5000) (K := 4) (N := 128)
    Cert.KernelIdeal.dot_S5000x4_S4x128_S5000x128_1_0_0_1_n_n rfl rfl rfl rfl
    (dot_lhs0 Cert.KernelIdeal.dot_S5000x4_S4x128_S5000x128_1_0_0_1_n_n, Cert.KernelIdeal.S5000x4)
    (dot_rhs1 Cert.KernelIdeal.dot_S5000x4_S4x128_S5000x128_1_0_0_1_n_n, Cert.KernelIdeal.S4x128) none l w p c

/-- A 5000 × 128 tile times a 128 × 128 matrix, accumulated into zero. -/
theorem kdot128 (l : FVec Ideal Cert.KernelIdeal.S5000x128 φ₁) (w : FVec Ideal Cert.KernelIdeal.S128x128 φ₂) (p : Fin 5000) (c : Fin 128) :
    FloatOps.matmul Cert.KernelIdeal.dot_S5000x128_S128x128_S5000x128_1_0_0_1_n_n none l w
        (constant Cert.KernelIdeal.S5000x128 .f32 0x00000000#32) (ix2 p c)
      = ∑ k : Fin 128, l (ix2 p k) * w (ix2 k c) :=
  Cert.LibPlainDot.matmul_zero_apply (M := 5000) (K := 128) (N := 128)
    Cert.KernelIdeal.dot_S5000x128_S128x128_S5000x128_1_0_0_1_n_n rfl rfl rfl rfl
    (dot_lhs0 Cert.KernelIdeal.dot_S5000x128_S128x128_S5000x128_1_0_0_1_n_n, Cert.KernelIdeal.S5000x128)
    (dot_rhs1 Cert.KernelIdeal.dot_S5000x128_S128x128_S5000x128_1_0_0_1_n_n, Cert.KernelIdeal.S128x128) none l w p c

/-- A 2000 × 128 array times a 128 × 128 matrix, accumulated into zero. -/
theorem kdotHead (l : FVec Ideal Cert.KernelIdeal.S2000x128 φ₁) (w : FVec Ideal Cert.KernelIdeal.S128x128 φ₂) (p : Fin 2000) (c : Fin 128) :
    FloatOps.matmul Cert.KernelIdeal.dot_S2000x128_S128x128_S2000x128_1_0_0_1_n_n none l w
        (constant Cert.KernelIdeal.S2000x128 .f32 0x00000000#32) (ix2 p c)
      = ∑ k : Fin 128, l (ix2 p k) * w (ix2 k c) :=
  Cert.LibPlainDot.matmul_zero_apply (M := 2000) (K := 128) (N := 128)
    Cert.KernelIdeal.dot_S2000x128_S128x128_S2000x128_1_0_0_1_n_n rfl rfl rfl rfl
    (dot_lhs0 Cert.KernelIdeal.dot_S2000x128_S128x128_S2000x128_1_0_0_1_n_n, Cert.KernelIdeal.S2000x128)
    (dot_rhs1 Cert.KernelIdeal.dot_S2000x128_S128x128_S2000x128_1_0_0_1_n_n, Cert.KernelIdeal.S128x128) none l w p c

/-- A 2000 × 128 array times a 128 × 1 column, accumulated into zero. -/
theorem kdotOut (l : FVec Ideal Cert.KernelIdeal.S2000x128 φ₁) (w : FVec Ideal Cert.KernelIdeal.S128x1 φ₂) (p : Fin 2000) (u : Fin 1) :
    FloatOps.matmul Cert.KernelIdeal.dot_S2000x128_S128x1_S2000x1_1_0_0_1_n_n none l w
        (constant Cert.KernelIdeal.S2000x1 .f32 0x00000000#32) (ix2 p u)
      = ∑ k : Fin 128, l (ix2 p k) * w (ix2 k u) :=
  Cert.LibPlainDot.matmul_zero_apply (M := 2000) (K := 128) (N := 1)
    Cert.KernelIdeal.dot_S2000x128_S128x1_S2000x1_1_0_0_1_n_n rfl rfl rfl rfl
    (dot_lhs0 Cert.KernelIdeal.dot_S2000x128_S128x1_S2000x1_1_0_0_1_n_n, Cert.KernelIdeal.S2000x128)
    (dot_rhs1 Cert.KernelIdeal.dot_S2000x128_S128x1_S2000x1_1_0_0_1_n_n, Cert.KernelIdeal.S128x1) none l w p u

/-- The reference's 100000 × 4 by 4 × 128 product. -/
theorem rdot4 (l : FVec Ideal Cert.ReferenceIdeal.S100000x4 φ₁) (w : FVec Ideal Cert.ReferenceIdeal.S4x128 φ₂) (r : Fin 100000) (c : Fin 128) :
    FloatOps.dotGeneral Cert.ReferenceIdeal.dot_S100000x4_S4x128_S100000x128_1_0_0_1_n_n none .single l w (ix2 r c)
      = ∑ k : Fin 4, l (ix2 r k) * w (ix2 k c) :=
  Cert.LibPlainDot.dotGeneral_apply (M := 100000) (K := 4) (N := 128)
    Cert.ReferenceIdeal.dot_S100000x4_S4x128_S100000x128_1_0_0_1_n_n rfl rfl rfl rfl
    (dot_lhs0 Cert.ReferenceIdeal.dot_S100000x4_S4x128_S100000x128_1_0_0_1_n_n, Cert.ReferenceIdeal.S100000x4)
    (dot_rhs1 Cert.ReferenceIdeal.dot_S100000x4_S4x128_S100000x128_1_0_0_1_n_n, Cert.ReferenceIdeal.S4x128) none .single l w r c

/-- The reference's 100000 × 128 by 128 × 128 product. -/
theorem rdot128 (l : FVec Ideal Cert.ReferenceIdeal.S100000x128 φ₁) (w : FVec Ideal Cert.ReferenceIdeal.S128x128 φ₂) (r : Fin 100000) (c : Fin 128) :
    FloatOps.dotGeneral Cert.ReferenceIdeal.dot_S100000x128_S128x128_S100000x128_1_0_0_1_n_n none .single l w (ix2 r c)
      = ∑ k : Fin 128, l (ix2 r k) * w (ix2 k c) :=
  Cert.LibPlainDot.dotGeneral_apply (M := 100000) (K := 128) (N := 128)
    Cert.ReferenceIdeal.dot_S100000x128_S128x128_S100000x128_1_0_0_1_n_n rfl rfl rfl rfl
    (dot_lhs0 Cert.ReferenceIdeal.dot_S100000x128_S128x128_S100000x128_1_0_0_1_n_n, Cert.ReferenceIdeal.S100000x128)
    (dot_rhs1 Cert.ReferenceIdeal.dot_S100000x128_S128x128_S100000x128_1_0_0_1_n_n, Cert.ReferenceIdeal.S128x128) none .single l w r c

/-- The reference's 2000 × 128 by 128 × 128 product. -/
theorem rdotHead (l : FVec Ideal Cert.ReferenceIdeal.S2000x128 φ₁) (w : FVec Ideal Cert.ReferenceIdeal.S128x128 φ₂) (p : Fin 2000) (c : Fin 128) :
    FloatOps.dotGeneral Cert.ReferenceIdeal.dot_S2000x128_S128x128_S2000x128_1_0_0_1_n_n none .single l w (ix2 p c)
      = ∑ k : Fin 128, l (ix2 p k) * w (ix2 k c) :=
  Cert.LibPlainDot.dotGeneral_apply (M := 2000) (K := 128) (N := 128)
    Cert.ReferenceIdeal.dot_S2000x128_S128x128_S2000x128_1_0_0_1_n_n rfl rfl rfl rfl
    (dot_lhs0 Cert.ReferenceIdeal.dot_S2000x128_S128x128_S2000x128_1_0_0_1_n_n, Cert.ReferenceIdeal.S2000x128)
    (dot_rhs1 Cert.ReferenceIdeal.dot_S2000x128_S128x128_S2000x128_1_0_0_1_n_n, Cert.ReferenceIdeal.S128x128) none .single l w p c

/-- The reference's 2000 × 128 by 128 × 1 product. -/
theorem rdotOut (l : FVec Ideal Cert.ReferenceIdeal.S2000x128 φ₁) (w : FVec Ideal Cert.ReferenceIdeal.S128x1 φ₂) (p : Fin 2000) (u : Fin 1) :
    FloatOps.dotGeneral Cert.ReferenceIdeal.dot_S2000x128_S128x1_S2000x1_1_0_0_1_n_n none .single l w (ix2 p u)
      = ∑ k : Fin 128, l (ix2 p k) * w (ix2 k u) :=
  Cert.LibPlainDot.dotGeneral_apply (M := 2000) (K := 128) (N := 1)
    Cert.ReferenceIdeal.dot_S2000x128_S128x1_S2000x1_1_0_0_1_n_n rfl rfl rfl rfl
    (dot_lhs0 Cert.ReferenceIdeal.dot_S2000x128_S128x1_S2000x1_1_0_0_1_n_n, Cert.ReferenceIdeal.S2000x128)
    (dot_rhs1 Cert.ReferenceIdeal.dot_S2000x128_S128x1_S2000x1_1_0_0_1_n_n, Cert.ReferenceIdeal.S128x1) none .single l w p u

end Dots

/-! ## A bias row, and the zero, at an entry -/

section Rows
variable {a b : ℕ}

/-- The kernel spreads a 1 × b row (recast to its own shape first) over a rows: entry (p, c) is the row's entry c. -/
theorem kbias (B : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ B h1) h2 (ix2 p c) = B (ix2 (0 : Fin 1) c) :=
  (broadcastTo_1b_ab_apply _ h2 p c).trans (congrFun (shapeCast_self B h1) _)

/-- The reference spreads a 1 × b row over a rows along both axes: entry (r, c) is again the row's entry c. -/
theorem rbias (B : (⟨2, ![1, b]⟩ : Shape).Idx → EReal)
    (h : (⟨2, ![1, b]⟩ : Shape).BroadcastsInDim ⟨2, ![a, b]⟩ (![0, 1] : Fin 2 → Fin 2)) (r : Fin a) (c : Fin b) :
    broadcastInDim ⟨2, ![a, b]⟩ ![0, 1] h B (ix2 r c) = B (ix2 (0 : Fin 1) c) :=
  broadcastInDim_apply _ h B (ix2 r c) (ix2 (0 : Fin 1) c) (fun ax => match ax with
    | ⟨0, _⟩ => by show (0 : ℕ) = if (1 : ℕ) = 1 then 0 else r.val; rw [if_pos rfl]
    | ⟨1, _⟩ => by
      show c.val = if b = 1 then 0 else c.val
      split
      · have := c.isLt; omega
      · rfl)

end Rows

/-! ## One dense step at an entry -/

section Dense
variable {φ₁ φ₂ : FTy}

/-- A 5000 × 4 tile times the weights plus the spread bias row: Σₖ u(p,k)·w(k,c) + B(0,c). -/
theorem kdense4 (u : FVec Ideal Cert.KernelIdeal.S5000x4 φ₁) (w : FVec Ideal Cert.KernelIdeal.S4x128 φ₂)
    (B : FVec Ideal Cert.KernelIdeal.S1x128 .f32) (h3 : Cert.KernelIdeal.S1x128.ShapeCasts Cert.KernelIdeal.S1x128)
    (h4 : Cert.KernelIdeal.S1x128.Broadcasts Cert.KernelIdeal.S5000x128) (p : Fin 5000) (c : Fin 128) :
    addf (matmul Cert.KernelIdeal.dot_S5000x4_S4x128_S5000x128_1_0_0_1_n_n none u w (constant Cert.KernelIdeal.S5000x128 .f32 0x00000000#32))
        (broadcastTo Cert.KernelIdeal.S5000x128 (shapeCast Cert.KernelIdeal.S1x128 B h3) h4) (ix2 p c)
      = (∑ k : Fin 4, u (ix2 p k) * w (ix2 k c)) + B (ix2 (0 : Fin 1) c) :=
  congrArg₂ (· + ·) (kdot4 u w p c) (kbias B h3 h4 p c)

/-- A 5000 × 128 tile times the weights plus the spread bias row. -/
theorem kdense128 (u : FVec Ideal Cert.KernelIdeal.S5000x128 φ₁) (w : FVec Ideal Cert.KernelIdeal.S128x128 φ₂)
    (B : FVec Ideal Cert.KernelIdeal.S1x128 .f32) (h3 : Cert.KernelIdeal.S1x128.ShapeCasts Cert.KernelIdeal.S1x128)
    (h4 : Cert.KernelIdeal.S1x128.Broadcasts Cert.KernelIdeal.S5000x128) (p : Fin 5000) (c : Fin 128) :
    addf (matmul Cert.KernelIdeal.dot_S5000x128_S128x128_S5000x128_1_0_0_1_n_n none u w (constant Cert.KernelIdeal.S5000x128 .f32 0x00000000#32))
        (broadcastTo Cert.KernelIdeal.S5000x128 (shapeCast Cert.KernelIdeal.S1x128 B h3) h4) (ix2 p c)
      = (∑ k : Fin 128, u (ix2 p k) * w (ix2 k c)) + B (ix2 (0 : Fin 1) c) :=
  congrArg₂ (· + ·) (kdot128 u w p c) (kbias B h3 h4 p c)

/-- The pooled 2000 × 128 array times the weights plus the spread bias row. -/
theorem kdenseHead (u : FVec Ideal Cert.KernelIdeal.S2000x128 φ₁) (w : FVec Ideal Cert.KernelIdeal.S128x128 φ₂)
    (B : FVec Ideal Cert.KernelIdeal.S1x128 .f32) (h3 : Cert.KernelIdeal.S1x128.ShapeCasts Cert.KernelIdeal.S1x128)
    (h4 : Cert.KernelIdeal.S1x128.Broadcasts Cert.KernelIdeal.S2000x128) (p : Fin 2000) (c : Fin 128) :
    addf (matmul Cert.KernelIdeal.dot_S2000x128_S128x128_S2000x128_1_0_0_1_n_n none u w (constant Cert.KernelIdeal.S2000x128 .f32 0x00000000#32))
        (broadcastTo Cert.KernelIdeal.S2000x128 (shapeCast Cert.KernelIdeal.S1x128 B h3) h4) (ix2 p c)
      = (∑ k : Fin 128, u (ix2 p k) * w (ix2 k c)) + B (ix2 (0 : Fin 1) c) :=
  congrArg₂ (· + ·) (kdotHead u w p c) (kbias B h3 h4 p c)

/-- The hidden 2000 × 128 array times a 128 × 1 column plus the spread 1 × 1 bias. -/
theorem kdenseOut (u : FVec Ideal Cert.KernelIdeal.S2000x128 φ₁) (w : FVec Ideal Cert.KernelIdeal.S128x1 φ₂)
    (B : FVec Ideal Cert.KernelIdeal.S1x1 .f32) (h3 : Cert.KernelIdeal.S1x1.ShapeCasts Cert.KernelIdeal.S1x1)
    (h4 : Cert.KernelIdeal.S1x1.Broadcasts Cert.KernelIdeal.S2000x1) (p : Fin 2000) (c : Fin 1) :
    addf (matmul Cert.KernelIdeal.dot_S2000x128_S128x1_S2000x1_1_0_0_1_n_n none u w (constant Cert.KernelIdeal.S2000x1 .f32 0x00000000#32))
        (broadcastTo Cert.KernelIdeal.S2000x1 (shapeCast Cert.KernelIdeal.S1x1 B h3) h4) (ix2 p c)
      = (∑ k : Fin 128, u (ix2 p k) * w (ix2 k c)) + B (ix2 (0 : Fin 1) c) :=
  congrArg₂ (· + ·) (kdotOut u w p c) (kbias B h3 h4 p c)

/-- The reference's 100000 × 4 array times the weights plus the spread bias row. -/
theorem rdense4 (l : FVec Ideal Cert.ReferenceIdeal.S100000x4 φ₁) (w : FVec Ideal Cert.ReferenceIdeal.S4x128 φ₂)
    (B : FVec Ideal Cert.ReferenceIdeal.S1x128 .f32)
    (h : Cert.ReferenceIdeal.S1x128.BroadcastsInDim Cert.ReferenceIdeal.S100000x128 (![0, 1] : Fin 2 → Fin 2)) (r : Fin 100000) (c : Fin 128) :
    addf (Host.dotGeneral Cert.ReferenceIdeal.dot_S100000x4_S4x128_S100000x128_1_0_0_1_n_n none l w)
        (broadcastInDim Cert.ReferenceIdeal.S100000x128 ![0, 1] h B) (ix2 r c)
      = (∑ k : Fin 4, l (ix2 r k) * w (ix2 k c)) + B (ix2 (0 : Fin 1) c) :=
  congrArg₂ (· + ·) (rdot4 l w r c) (rbias B h r c)

/-- The reference's 100000 × 128 array times the weights plus the spread bias row. -/
theorem rdense128 (l : FVec Ideal Cert.ReferenceIdeal.S100000x128 φ₁) (w : FVec Ideal Cert.ReferenceIdeal.S128x128 φ₂)
    (B : FVec Ideal Cert.ReferenceIdeal.S1x128 .f32)
    (h : Cert.ReferenceIdeal.S1x128.BroadcastsInDim Cert.ReferenceIdeal.S100000x128 (![0, 1] : Fin 2 → Fin 2)) (r : Fin 100000) (c : Fin 128) :
    addf (Host.dotGeneral Cert.ReferenceIdeal.dot_S100000x128_S128x128_S100000x128_1_0_0_1_n_n none l w)
        (broadcastInDim Cert.ReferenceIdeal.S100000x128 ![0, 1] h B) (ix2 r c)
      = (∑ k : Fin 128, l (ix2 r k) * w (ix2 k c)) + B (ix2 (0 : Fin 1) c) :=
  congrArg₂ (· + ·) (rdot128 l w r c) (rbias B h r c)

/-- The reference's pooled 2000 × 128 array times the weights plus the spread bias row. -/
theorem rdenseHead (l : FVec Ideal Cert.ReferenceIdeal.S2000x128 φ₁) (w : FVec Ideal Cert.ReferenceIdeal.S128x128 φ₂)
    (B : FVec Ideal Cert.ReferenceIdeal.S1x128 .f32)
    (h : Cert.ReferenceIdeal.S1x128.BroadcastsInDim Cert.ReferenceIdeal.S2000x128 (![0, 1] : Fin 2 → Fin 2)) (p : Fin 2000) (c : Fin 128) :
    addf (Host.dotGeneral Cert.ReferenceIdeal.dot_S2000x128_S128x128_S2000x128_1_0_0_1_n_n none l w)
        (broadcastInDim Cert.ReferenceIdeal.S2000x128 ![0, 1] h B) (ix2 p c)
      = (∑ k : Fin 128, l (ix2 p k) * w (ix2 k c)) + B (ix2 (0 : Fin 1) c) :=
  congrArg₂ (· + ·) (rdotHead l w p c) (rbias B h p c)

/-- The reference's hidden 2000 × 128 array times a 128 × 1 column plus the spread 1 × 1 bias. -/
theorem rdenseOut (l : FVec Ideal Cert.ReferenceIdeal.S2000x128 φ₁) (w : FVec Ideal Cert.ReferenceIdeal.S128x1 φ₂)
    (B : FVec Ideal Cert.ReferenceIdeal.S1x1 .f32)
    (h : Cert.ReferenceIdeal.S1x1.BroadcastsInDim Cert.ReferenceIdeal.S2000x1 (![0, 1] : Fin 2 → Fin 2)) (p : Fin 2000) (c : Fin 1) :
    addf (Host.dotGeneral Cert.ReferenceIdeal.dot_S2000x128_S128x1_S2000x1_1_0_0_1_n_n none l w)
        (broadcastInDim Cert.ReferenceIdeal.S2000x1 ![0, 1] h B) (ix2 p c)
      = (∑ k : Fin 128, l (ix2 p k) * w (ix2 k c)) + B (ix2 (0 : Fin 1) c) :=
  congrArg₂ (· + ·) (rdotOut l w p c) (rbias B h p c)

end Dense

/-! ## The tiles against the stages -/

/-- The input projection: row p of the tile is row r of x, so entry (p, c) of the tile's result is entry (r, c) of
    x·w + B. -/
theorem proj_tile (x : FVec Ideal Cert.ReferenceIdeal.S100000x4 .f32) (w : FVec Ideal Cert.ReferenceIdeal.S4x128 .f32)
    (B : FVec Ideal Cert.ReferenceIdeal.S1x128 .f32) (x0 : Vec Ideal Cert.KernelIdeal.S5000x4 .f32) (p : Fin 5000) (c : Fin 128)
    (r : Fin 100000) (h0 : ∀ k : Fin 4, x0 (ix2 p k) = x (ix2 r k)) :
    Cert.KernelIdeal.Gen.k0_pay1 (F := Ideal) x0 w B (ix2 p c) = Cert.Stages.projCore x w B (ix2 r c) := by
  unfold Cert.KernelIdeal.Gen.k0_pay1 Cert.Stages.projCore
  refine (kdense4 _ _ B _ _ p c).trans ?_
  refine (congrArg (· + B (ix2 (0 : Fin 1) c)) (Finset.sum_congr rfl fun k _ => ?_)).trans (rdense4 x w B _ r c).symm
  exact congrArg (· * w (ix2 k c)) (h0 k)

/-- One convolution's dense part: rows p of the two tiles are rows r of h and of a, so entry (p, c) of the tile's
    result is entry (r, c) of relu(relu((h + a)·W₁ + B₁)·W₂ + B₂).  Both sides are the same nested expression in the
    entries of those rows: the outer sum's k-th factor is the hidden value max(Σⱼ (h(r,j) + a(r,j))·W₁(j,k) + B₁(0,k), 0),
    and the two zeros are the value of one and the same word. -/
theorem layer_tile (h a : FVec Ideal Cert.ReferenceIdeal.S100000x128 .f32) (W1 W2 : FVec Ideal Cert.ReferenceIdeal.S128x128 .f32)
    (B1 B2 : FVec Ideal Cert.ReferenceIdeal.S1x128 .f32) (x0 x1 : Vec Ideal Cert.KernelIdeal.S5000x128 .f32)
    (p : Fin 5000) (c : Fin 128) (r : Fin 100000)
    (h0 : ∀ k : Fin 128, x0 (ix2 p k) = h (ix2 r k)) (h1 : ∀ k : Fin 128, x1 (ix2 p k) = a (ix2 r k)) :
    Cert.KernelIdeal.Gen.k1_pay1 (F := Ideal) x0 x1 W1 B1 W2 B2 (ix2 p c) = Cert.Stages.layerCore h a W1 B1 W2 B2 (ix2 r c) := by
  unfold Cert.KernelIdeal.Gen.k1_pay1 Cert.Stages.layerCore
  -- the outer dense step on each side
  refine (congrArg (fun t : EReal => max t _) (kdense128 _ _ B2 _ _ p c)).trans ?_
  refine Eq.trans ?_ (congrArg (fun t : EReal => max t _) (rdense128 _ W2 B2 _ r c)).symm
  refine congrArg₂ max (congrArg (· + B2 (ix2 (0 : Fin 1) c)) (Finset.sum_congr rfl fun k _ => ?_)) rfl
  refine congrArg₂ (· * ·) ?_ (congrFun (shapeCast_self W2 _) (ix2 k c))
  -- the hidden value at (p, k) and at (r, k): the inner dense step on each side
  refine (congrArg (fun t : EReal => max t _) (kdense128 _ _ B1 _ _ p k)).trans ?_
  refine Eq.trans ?_ (congrArg (fun t : EReal => max t _) (rdense128 _ W1 B1 _ r k)).symm
  refine congrArg₂ max (congrArg (· + B1 (ix2 (0 : Fin 1) k)) (Finset.sum_congr rfl fun j _ => ?_)) rfl
  refine congrArg₂ (· * ·) ?_ (congrFun (shapeCast_self W1 _) (ix2 j k))
  -- the summed inputs at (p, j) and at (r, j)
  exact congrArg₂ (· + ·) ((congrFun (shapeCast_self x0 _) _).trans (h0 j)) ((congrFun (shapeCast_self x1 _) _).trans (h1 j))

/-- The second and third convolution bodies are the first one's text. -/
theorem k2_pay1_eq : @Cert.KernelIdeal.Gen.k2_pay1 Ideal _ = @Cert.KernelIdeal.Gen.k1_pay1 Ideal _ := rfl
theorem k3_pay1_eq : @Cert.KernelIdeal.Gen.k3_pay1 Ideal _ = @Cert.KernelIdeal.Gen.k1_pay1 Ideal _ := rfl

/-- The read-out's shared hidden layer: entry (p, k) of the kernel's hidden array is entry (p, k) of relu(g·W + B). -/
theorem hidden_tile (g : FVec Ideal Cert.ReferenceIdeal.S2000x128 .f32) (sw : FVec Ideal Cert.ReferenceIdeal.S128x128 .f32)
    (SB : FVec Ideal Cert.ReferenceIdeal.S1x128 .f32) (p : Fin 2000) (k : Fin 128) :
    Cert.KernelIdeal.Gen.k4_pay1 (F := Ideal) g sw SB (ix2 p k) = Cert.Stages.headHidden g sw SB (ix2 p k) := by
  unfold Cert.KernelIdeal.Gen.k4_pay1 Cert.Stages.headHidden
  refine (congrArg (fun t : EReal => max t _) (kdenseHead _ _ SB _ _ p k)).trans ?_
  refine Eq.trans ?_ (congrArg (fun t : EReal => max t _) (rdenseHead _ sw SB _ p k)).symm
  refine congrArg₂ max (congrArg (· + SB (ix2 (0 : Fin 1) k)) (Finset.sum_congr rfl fun j _ => ?_)) rfl
  exact congrArg (· * sw (ix2 j k)) (congrFun (shapeCast_self g _) (ix2 p j))

/-- A read-out: entry (p, 0) of the kernel's column is entry (p, 0) of hidden·w + B, the hidden layer being the
    shared one above. -/
theorem head_tile (g : FVec Ideal Cert.ReferenceIdeal.S2000x128 .f32) (sw : FVec Ideal Cert.ReferenceIdeal.S128x128 .f32)
    (SB : FVec Ideal Cert.ReferenceIdeal.S1x128 .f32) (ew : FVec Ideal Cert.ReferenceIdeal.S128x1 .f32)
    (EB : FVec Ideal Cert.ReferenceIdeal.S1x1 .f32) (p : Fin 2000) (u : Fin 1) :
    Cert.KernelIdeal.Gen.k4_pay2 (F := Ideal) g sw SB ew EB (ix2 p u)
      = Cert.Stages.headOut (Cert.Stages.headHidden g sw SB) ew EB (ix2 p u) := by
  unfold Cert.KernelIdeal.Gen.k4_pay2 Cert.Stages.headOut
  refine (kdenseOut _ _ EB _ _ p u).trans ?_
  refine Eq.trans ?_ (rdenseOut _ ew EB _ p u).symm
  refine congrArg (· + EB (ix2 (0 : Fin 1) u)) (Finset.sum_congr rfl fun k _ => ?_)
  exact congrArg (· * ew (ix2 k u)) (hidden_tile g sw SB p k)

/-- The second read-out's body is the first one's text. -/
theorem k4_pay3_eq : @Cert.KernelIdeal.Gen.k4_pay3 Ideal _ = @Cert.KernelIdeal.Gen.k4_pay2 Ideal _ := rfl

end Cert.TileLaws

end
-- ==== Proof.TileAt.lean ====
/-
  The tile laws restated at indices.  A tile's entry y (row inside the tile, column) and the whole array's entry i at the
  same column, where the tile's row holds the array's row: the kernel's payload at y is the stage at i.  The weights and
  bias rows of a tile are the whole arrays.
-/
import proofs.«142797_j21234318312262_1_alg».proof.Proof.TileLaws
import Idealize.ShloMosaic.Lib.ValueIdx

noncomputable section

namespace Cert.TileAt

open Idealize.ShloMosaic Idealize.ShloMosaic.ValueIdx

/-- An index of a two-axis array is the pair of its coordinates. -/
theorem idx2_eq {a b : Nat} (y : (⟨2, ![a, b]⟩ : Shape).Idx) :
    y = ix2 (⟨(y 0).val, (y 0).isLt⟩ : Fin a) (⟨(y 1).val, (y 1).isLt⟩ : Fin b) :=
  funext fun d => Fin.ext (by match d with | ⟨0, _⟩ => rfl | ⟨1, _⟩ => rfl)

/-- Two indices of a two-axis array with the same coordinates are equal. -/
theorem idx2_ext {a b : Nat} (i j : (⟨2, ![a, b]⟩ : Shape).Idx) (h0 : (i 0).val = (j 0).val) (h1 : (i 1).val = (j 1).val) : i = j :=
  funext fun d => Fin.ext (by match d with | ⟨0, _⟩ => exact h0 | ⟨1, _⟩ => exact h1)

theorem proj_at (x : FVec Ideal Cert.ReferenceIdeal.S100000x4 .f32) (w : FVec Ideal Cert.ReferenceIdeal.S4x128 .f32) (B : FVec Ideal Cert.ReferenceIdeal.S1x128 .f32)
    (x0 : Vec Ideal Cert.KernelIdeal.S5000x4 .f32) (x1 : Vec Ideal Cert.KernelIdeal.S4x128 .f32) (x2 : Vec Ideal Cert.KernelIdeal.S1x128 .f32)
    (y : Cert.KernelIdeal.S5000x128.Idx) (i : Cert.ReferenceIdeal.S100000x128.Idx)
    (hc : (i 1).val = (y 1).val)
    (h0 : ∀ k : Fin 4, x0 (ix2 (⟨(y 0).val, (y 0).isLt⟩ : Fin 5000) k) = x (ix2 (⟨(i 0).val, (i 0).isLt⟩ : Fin 100000) k))
    (h1 : x1 = w) (h2 : x2 = B) :
    Cert.KernelIdeal.Gen.k0_pay1 (F := Ideal) x0 x1 x2 y = Cert.Stages.projCore x w B i := by
  subst h1 h2
  have ey := idx2_eq y
  have ei : i = ix2 (⟨(i 0).val, (i 0).isLt⟩ : Fin 100000) (⟨(y 1).val, (y 1).isLt⟩ : Fin 128) :=
    idx2_ext _ _ rfl hc
  exact (congrArg (Cert.KernelIdeal.Gen.k0_pay1 (F := Ideal) x0 x1 x2) ey).trans
    ((Cert.TileLaws.proj_tile x x1 x2 x0 _ _ _ h0).trans (congrArg (Cert.Stages.projCore x x1 x2) ei.symm))

theorem layer_at (h a : FVec Ideal Cert.ReferenceIdeal.S100000x128 .f32) (W1 : FVec Ideal Cert.ReferenceIdeal.S128x128 .f32) (B1 : FVec Ideal Cert.ReferenceIdeal.S1x128 .f32)
    (W2 : FVec Ideal Cert.ReferenceIdeal.S128x128 .f32) (B2 : FVec Ideal Cert.ReferenceIdeal.S1x128 .f32)
    (x0 x1 : Vec Ideal Cert.KernelIdeal.S5000x128 .f32) (x2 : Vec Ideal Cert.KernelIdeal.S128x128 .f32) (x3 : Vec Ideal Cert.KernelIdeal.S1x128 .f32)
    (x4 : Vec Ideal Cert.KernelIdeal.S128x128 .f32) (x5 : Vec Ideal Cert.KernelIdeal.S1x128 .f32)
    (y : Cert.KernelIdeal.S5000x128.Idx) (i : Cert.ReferenceIdeal.S100000x128.Idx)
    (hc : (i 1).val = (y 1).val)
    (h0 : ∀ k : Fin 128, x0 (ix2 (⟨(y 0).val, (y 0).isLt⟩ : Fin 5000) k) = h (ix2 (⟨(i 0).val, (i 0).isLt⟩ : Fin 100000) k))
    (h1 : ∀ k : Fin 128, x1 (ix2 (⟨(y 0).val, (y 0).isLt⟩ : Fin 5000) k) = a (ix2 (⟨(i 0).val, (i 0).isLt⟩ : Fin 100000) k))
    (h2 : x2 = W1) (h3 : x3 = B1) (h4 : x4 = W2) (h5 : x5 = B2) :
    Cert.KernelIdeal.Gen.k1_pay1 (F := Ideal) x0 x1 x2 x3 x4 x5 y = Cert.Stages.layerCore h a W1 B1 W2 B2 i := by
  subst h2 h3 h4 h5
  have ey := idx2_eq y
  have ei : i = ix2 (⟨(i 0).val, (i 0).isLt⟩ : Fin 100000) (⟨(y 1).val, (y 1).isLt⟩ : Fin 128) :=
    idx2_ext _ _ rfl hc
  exact (congrArg (Cert.KernelIdeal.Gen.k1_pay1 (F := Ideal) x0 x1 x2 x3 x4 x5) ey).trans
    ((Cert.TileLaws.layer_tile h a x2 x4 x3 x5 x0 x1 _ _ _ h0 h1).trans (congrArg (Cert.Stages.layerCore h a x2 x3 x4 x5) ei.symm))

theorem head_at (g : FVec Ideal Cert.ReferenceIdeal.S2000x128 .f32) (sw : FVec Ideal Cert.ReferenceIdeal.S128x128 .f32) (SB : FVec Ideal Cert.ReferenceIdeal.S1x128 .f32)
    (ew : FVec Ideal Cert.ReferenceIdeal.S128x1 .f32) (EB : FVec Ideal Cert.ReferenceIdeal.S1x1 .f32)
    (x0 : Vec Ideal Cert.KernelIdeal.S2000x128 .f32) (x1 : Vec Ideal Cert.KernelIdeal.S128x128 .f32) (x2 : Vec Ideal Cert.KernelIdeal.S1x128 .f32)
    (x3 : Vec Ideal Cert.KernelIdeal.S128x1 .f32) (x4 : Vec Ideal Cert.KernelIdeal.S1x1 .f32)
    (y : Cert.KernelIdeal.S2000x1.Idx) (i : Cert.ReferenceIdeal.S2000x1.Idx) (hyi : y = i)
    (h0 : x0 = g) (h1 : x1 = sw) (h2 : x2 = SB) (h3 : x3 = ew) (h4 : x4 = EB) :
    Cert.KernelIdeal.Gen.k4_pay2 (F := Ideal) x0 x1 x2 x3 x4 y = Cert.Stages.headOut (Cert.Stages.headHidden g sw SB) ew EB i := by
  subst h0 h1 h2 h3 h4 hyi
  have ey := idx2_eq y
  exact (congrArg (Cert.KernelIdeal.Gen.k4_pay2 (F := Ideal) x0 x1 x2 x3 x4) ey).trans
    ((Cert.TileLaws.head_tile x0 x1 x2 x3 x4 _ _).trans (congrArg (Cert.Stages.headOut (Cert.Stages.headHidden x0 x1 x2) x3 x4) ey.symm))

end Cert.TileAt

end
-- ==== Proof.Region0.lean ====
/-
  The input projection as a region of twenty row tiles.  Grid point t reads rows 5000·t … 5000·t + 4999 of the node
  inputs, the whole 4 × 128 weight and the bias row, and writes the same rows of the output.  An output entry depends only
  on its own node's row, so the tile's entry is the whole-array stage's entry; the twenty tiles cover the 100000 rows.
-/
import proofs.«142797_j21234318312262_1_alg».proof.Proof.Gen.KernelIdeal.Frame
import proofs.«142797_j21234318312262_1_alg».proof.Proof.TileAt
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row t, the weight and the bias at block
    (0, 0), and there are twenty points. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

/-- What point t writes back is block t of the projection of the region's input arrays. -/
theorem flushed (c : Dev nD) (t : Fin cfg0.N) :
    (dat0 V c).flushed 3 t = ((cfg0.win 3).blk t).view.read (Elt Ideal)
      (Cert.Stages.projCore (V c main_arg0) (V c main_arg3) (V c main_v4)) := by
  show (cfg0.win 3).cut (grid0.coords t) ((dat0 V c).after 3 t) = _
  rw [after0_3]
  unfold out0_3
  rw [View.canon_unit_zero hz]
  simp only [View.ld_unit_zero (S := S5000x4) hz, View.ld_unit_zero (S := S4x128) hz, View.ld_unit_zero (S := S1x128) hz]
  obtain ⟨e00, e01, e10, e11, e20, e21, e30, e31, ht⟩ := idx_facts t
  have hW : iblk0 V c 1 t = V c main_arg3 := by
    funext y
    show V c main_arg3 (((cfg0.win 1).blk t).view.emb y) = V c main_arg3 y
    refine congrArg (V c main_arg3) (funext fun d => Fin.ext ?_)
    match d with
    | ⟨0, _⟩ => show win0_1.index t (0 : Fin 2) * 4 + 1 * (y 0).val = (y 0).val; omega
    | ⟨1, _⟩ => show win0_1.index t (1 : Fin 2) * 128 + 1 * (y 1).val = (y 1).val; omega
  have hB : iblk0 V c 2 t = V c main_v4 := by
    funext y
    show V c main_v4 (((cfg0.win 2).blk t).view.emb y) = V c main_v4 y
    refine congrArg (V c main_v4) (funext fun d => Fin.ext ?_)
    match d with
    | ⟨0, _⟩ => show win0_2.index t (0 : Fin 2) * 1 + 1 * (y 0).val = (y 0).val; omega
    | ⟨1, _⟩ => show win0_2.index t (1 : Fin 2) * 128 + 1 * (y 1).val = (y 1).val; omega
  funext j
  have hj0 : (j 0).val < 5000 := (j 0).isLt
  have hj1 : (j 1).val < 128 := (j 1).isLt
  have hc : ((((cfg0.win 3).blk t).view.emb j) 1).val = (j 1).val := by
    show win0_3.index t (1 : Fin 2) * 128 + 1 * (j 1).val = (j 1).val; omega
  have hr : ((((cfg0.win 3).blk t).view.emb j) 0).val = t.val * 5000 + (j 0).val := by
    show win0_3.index t (0 : Fin 2) * 5000 + 1 * (j 0).val = t.val * 5000 + (j 0).val; omega
  refine Cert.TileAt.proj_at (V c main_arg0) (V c main_arg3) (V c main_v4)
    (iblk0 V c 0 t) (iblk0 V c 1 t) (iblk0 V c 2 t)
    j (((cfg0.win 3).blk t).view.emb j) hc (fun k => ?_) hW hB
  show V c main_arg0 (((cfg0.win 0).blk t).view.emb (ix2 (⟨(j 0).val, (j 0).isLt⟩ : Fin 5000) k)) = V c main_arg0 _
  refine congrArg (V c main_arg0) (funext fun d => Fin.ext ?_)
  match d with
  | ⟨0, _⟩ => show win0_0.index t (0 : Fin 2) * 5000 + 1 * (j 0).val = ((((cfg0.win 3).blk t).view.emb j) 0).val; rw [hr]; omega
  | ⟨1, _⟩ => show win0_0.index t (1 : Fin 2) * 4 + 1 * k.val = k.val; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Row r is in the block of point r / 5000: the twenty blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_3 _, ?_⟩
  rw [mem_blk]
  obtain ⟨-, -, -, -, -, -, e30, e31, -⟩ := idx_facts ⟨(i 0).val / 5000, hlt⟩
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e31]; omega

/-- The output array after the region is the projection of the region's input arrays. -/
theorem final (c : Dev nD) :
    (dat0 V c).arrAt 3 cfg0.N = Cert.Stages.projCore (V c main_arg0) (V c main_arg3) (V c main_v4) :=
  (dat0 V c).arrAt_eq_of_cover 3 _ (fun t _ => flushed V c t) cover

end Cert.KernelIdeal.Region0

end
-- ==== Proof.Region1.lean ====
/-
  Convolution 1's dense part as a region of twenty row tiles.  Grid point t reads rows 5000·t … 5000·t + 4999 of the node
  features and of the neighbour aggregate, the two whole weight matrices and the two bias rows, and writes the same rows
  of the output.  An output entry depends only on its own node's row, so the tile's entry is the whole-array stage's
  entry; the twenty tiles cover the 100000 rows, and the output array after the region is the stage of the region's
  input arrays.
-/
import proofs.«142797_j21234318312262_1_alg».proof.Proof.Gen.KernelIdeal.Frame
import proofs.«142797_j21234318312262_1_alg».proof.Proof.TileAt
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row t, the weights and biases at block
    (0, 0), and there are twenty points. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 20 :=
  (by decide +kernel : ∀ t : Fin grid1.N, _)

set_option maxHeartbeats 2000000 in
/-- What point t writes back is block t of the stage of the region's input arrays. -/
theorem flushed (c : Dev nD) (t : Fin cfg1.N) :
    (dat1 V c).flushed 6 t = ((cfg1.win 6).blk t).view.read (Elt Ideal)
      (Cert.Stages.layerCore (V c main_v5) (V c main_v15) (V c main_v23) (V c main_v18) (V c main_v25) (V c main_v21)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, ht⟩ := idx_facts t
  have hW1 : iblk1 V c 2 t = V c main_v23 := by
    funext y
    show V c main_v23 (((cfg1.win 2).blk t).view.emb y) = V c main_v23 y
    refine congrArg (V c main_v23) (funext fun d => Fin.ext ?_)
    match d with
    | ⟨0, _⟩ => show win1_2.index t (0 : Fin 2) * 128 + 1 * (y 0).val = (y 0).val; omega
    | ⟨1, _⟩ => show win1_2.index t (1 : Fin 2) * 128 + 1 * (y 1).val = (y 1).val; omega
  have hB1 : iblk1 V c 3 t = V c main_v18 := by
    funext y
    show V c main_v18 (((cfg1.win 3).blk t).view.emb y) = V c main_v18 y
    refine congrArg (V c main_v18) (funext fun d => Fin.ext ?_)
    match d with
    | ⟨0, _⟩ => show win1_3.index t (0 : Fin 2) * 1 + 1 * (y 0).val = (y 0).val; omega
    | ⟨1, _⟩ => show win1_3.index t (1 : Fin 2) * 128 + 1 * (y 1).val = (y 1).val; omega
  have hW2 : iblk1 V c 4 t = V c main_v25 := by
    funext y
    show V c main_v25 (((cfg1.win 4).blk t).view.emb y) = V c main_v25 y
    refine congrArg (V c main_v25) (funext fun d => Fin.ext ?_)
    match d with
    | ⟨0, _⟩ => show win1_4.index t (0 : Fin 2) * 128 + 1 * (y 0).val = (y 0).val; omega
    | ⟨1, _⟩ => show win1_4.index t (1 : Fin 2) * 128 + 1 * (y 1).val = (y 1).val; omega
  have hB2 : iblk1 V c 5 t = V c main_v21 := by
    funext y
    show V c main_v21 (((cfg1.win 5).blk t).view.emb y) = V c main_v21 y
    refine congrArg (V c main_v21) (funext fun d => Fin.ext ?_)
    match d with
    | ⟨0, _⟩ => show win1_5.index t (0 : Fin 2) * 1 + 1 * (y 0).val = (y 0).val; omega
    | ⟨1, _⟩ => show win1_5.index t (1 : Fin 2) * 128 + 1 * (y 1).val = (y 1).val; omega
  funext j
  have hj0 : (j 0).val < 5000 := (j 0).isLt
  have hj1 : (j 1).val < 128 := (j 1).isLt
  have hc : ((((cfg1.win 6).blk t).view.emb j) 1).val = (j 1).val := by
    show win1_6.index t (1 : Fin 2) * 128 + 1 * (j 1).val = (j 1).val; omega
  have hr : ((((cfg1.win 6).blk t).view.emb j) 0).val = t.val * 5000 + (j 0).val := by
    show win1_6.index t (0 : Fin 2) * 5000 + 1 * (j 0).val = t.val * 5000 + (j 0).val; omega
  refine Cert.TileAt.layer_at (V c main_v5) (V c main_v15) (V c main_v23) (V c main_v18) (V c main_v25) (V c main_v21)
    (iblk1 V c 0 t) (iblk1 V c 1 t) (iblk1 V c 2 t) (iblk1 V c 3 t) (iblk1 V c 4 t) (iblk1 V c 5 t)
    j (((cfg1.win 6).blk t).view.emb j) hc (fun k => ?_) (fun k => ?_) hW1 hB1 hW2 hB2
  · show V c main_v5 (((cfg1.win 0).blk t).view.emb (ix2 (⟨(j 0).val, (j 0).isLt⟩ : Fin 5000) k)) = V c main_v5 _
    refine congrArg (V c main_v5) (funext fun d => Fin.ext ?_)
    match d with
    | ⟨0, _⟩ => show win1_0.index t (0 : Fin 2) * 5000 + 1 * (j 0).val = ((((cfg1.win 6).blk t).view.emb j) 0).val; rw [hr]; omega
    | ⟨1, _⟩ => show win1_0.index t (1 : Fin 2) * 128 + 1 * k.val = k.val; omega
  · show V c main_v15 (((cfg1.win 1).blk t).view.emb (ix2 (⟨(j 0).val, (j 0).isLt⟩ : Fin 5000) k)) = V c main_v15 _
    refine congrArg (V c main_v15) (funext fun d => Fin.ext ?_)
    match d with
    | ⟨0, _⟩ => show win1_1.index t (0 : Fin 2) * 5000 + 1 * (j 0).val = ((((cfg1.win 6).blk t).view.emb j) 0).val; rw [hr]; omega
    | ⟨1, _⟩ => show win1_1.index t (1 : Fin 2) * 128 + 1 * k.val = k.val; omega

/-- An index of the output array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v26).slice (win1_6.rect t)).set ↔ _
  rw [View.set_slice_whole, Rect.mem_set_unit]
  exact Iff.rfl

/-- Row r is in the block of point r / 5000: the twenty blocks cover the array. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_6 _, ?_⟩
  rw [mem_blk]
  obtain ⟨-, -, -, -, -, -, -, -, -, -, -, -, e60, e61, -⟩ := idx_facts ⟨(i 0).val / 5000, hlt⟩
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e61]; omega

/-- The output array after the region is the dense stage of the region's input arrays. -/
theorem final (c : Dev nD) :
    (dat1 V c).arrAt 6 cfg1.N
      = Cert.Stages.layerCore (V c main_v5) (V c main_v15) (V c main_v23) (V c main_v18) (V c main_v25) (V c main_v21) :=
  (dat1 V c).arrAt_eq_of_cover 6 _ (fun t _ => flushed V c t) cover

end Cert.KernelIdeal.Region1

end
-- ==== Proof.Region2.lean ====
/-
  Convolution 2's dense part as a region of twenty row tiles.  Grid point t reads rows 5000·t … 5000·t + 4999 of the node
  features and of the neighbour aggregate, the two whole weight matrices and the two bias rows, and writes the same rows
  of the output.  An output entry depends only on its own node's row, so the tile's entry is the whole-array stage's
  entry; the twenty tiles cover the 100000 rows, and the output array after the region is the stage of the region's
  input arrays.
-/
import proofs.«142797_j21234318312262_1_alg».proof.Proof.Gen.KernelIdeal.Frame
import proofs.«142797_j21234318312262_1_alg».proof.Proof.TileAt
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row t, the weights and biases at block
    (0, 0), and there are twenty points. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 20 :=
  (by decide +kernel : ∀ t : Fin grid2.N, _)

set_option maxHeartbeats 2000000 in
/-- What point t writes back is block t of the stage of the region's input arrays. -/
theorem flushed (c : Dev nD) (t : Fin cfg2.N) :
    (dat2 V c).flushed 6 t = ((cfg2.win 6).blk t).view.read (Elt Ideal)
      (Cert.Stages.layerCore (V c main_v26) (V c main_v36) (V c main_v44) (V c main_v39) (V c main_v46) (V c main_v42)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, ht⟩ := idx_facts t
  have hW1 : iblk2 V c 2 t = V c main_v44 := by
    funext y
    show V c main_v44 (((cfg2.win 2).blk t).view.emb y) = V c main_v44 y
    refine congrArg (V c main_v44) (funext fun d => Fin.ext ?_)
    match d with
    | ⟨0, _⟩ => show win2_2.index t (0 : Fin 2) * 128 + 1 * (y 0).val = (y 0).val; omega
    | ⟨1, _⟩ => show win2_2.index t (1 : Fin 2) * 128 + 1 * (y 1).val = (y 1).val; omega
  have hB1 : iblk2 V c 3 t = V c main_v39 := by
    funext y
    show V c main_v39 (((cfg2.win 3).blk t).view.emb y) = V c main_v39 y
    refine congrArg (V c main_v39) (funext fun d => Fin.ext ?_)
    match d with
    | ⟨0, _⟩ => show win2_3.index t (0 : Fin 2) * 1 + 1 * (y 0).val = (y 0).val; omega
    | ⟨1, _⟩ => show win2_3.index t (1 : Fin 2) * 128 + 1 * (y 1).val = (y 1).val; omega
  have hW2 : iblk2 V c 4 t = V c main_v46 := by
    funext y
    show V c main_v46 (((cfg2.win 4).blk t).view.emb y) = V c main_v46 y
    refine congrArg (V c main_v46) (funext fun d => Fin.ext ?_)
    match d with
    | ⟨0, _⟩ => show win2_4.index t (0 : Fin 2) * 128 + 1 * (y 0).val = (y 0).val; omega
    | ⟨1, _⟩ => show win2_4.index t (1 : Fin 2) * 128 + 1 * (y 1).val = (y 1).val; omega
  have hB2 : iblk2 V c 5 t = V c main_v42 := by
    funext y
    show V c main_v42 (((cfg2.win 5).blk t).view.emb y) = V c main_v42 y
    refine congrArg (V c main_v42) (funext fun d => Fin.ext ?_)
    match d with
    | ⟨0, _⟩ => show win2_5.index t (0 : Fin 2) * 1 + 1 * (y 0).val = (y 0).val; omega
    | ⟨1, _⟩ => show win2_5.index t (1 : Fin 2) * 128 + 1 * (y 1).val = (y 1).val; omega
  funext j
  have hj0 : (j 0).val < 5000 := (j 0).isLt
  have hj1 : (j 1).val < 128 := (j 1).isLt
  have hc : ((((cfg2.win 6).blk t).view.emb j) 1).val = (j 1).val := by
    show win2_6.index t (1 : Fin 2) * 128 + 1 * (j 1).val = (j 1).val; omega
  have hr : ((((cfg2.win 6).blk t).view.emb j) 0).val = t.val * 5000 + (j 0).val := by
    show win2_6.index t (0 : Fin 2) * 5000 + 1 * (j 0).val = t.val * 5000 + (j 0).val; omega
  refine Cert.TileAt.layer_at (V c main_v26) (V c main_v36) (V c main_v44) (V c main_v39) (V c main_v46) (V c main_v42)
    (iblk2 V c 0 t) (iblk2 V c 1 t) (iblk2 V c 2 t) (iblk2 V c 3 t) (iblk2 V c 4 t) (iblk2 V c 5 t)
    j (((cfg2.win 6).blk t).view.emb j) hc (fun k => ?_) (fun k => ?_) hW1 hB1 hW2 hB2
  · show V c main_v26 (((cfg2.win 0).blk t).view.emb (ix2 (⟨(j 0).val, (j 0).isLt⟩ : Fin 5000) k)) = V c main_v26 _
    refine congrArg (V c main_v26) (funext fun d => Fin.ext ?_)
    match d with
    | ⟨0, _⟩ => show win2_0.index t (0 : Fin 2) * 5000 + 1 * (j 0).val = ((((cfg2.win 6).blk t).view.emb j) 0).val; rw [hr]; omega
    | ⟨1, _⟩ => show win2_0.index t (1 : Fin 2) * 128 + 1 * k.val = k.val; omega
  · show V c main_v36 (((cfg2.win 1).blk t).view.emb (ix2 (⟨(j 0).val, (j 0).isLt⟩ : Fin 5000) k)) = V c main_v36 _
    refine congrArg (V c main_v36) (funext fun d => Fin.ext ?_)
    match d with
    | ⟨0, _⟩ => show win2_1.index t (0 : Fin 2) * 5000 + 1 * (j 0).val = ((((cfg2.win 6).blk t).view.emb j) 0).val; rw [hr]; omega
    | ⟨1, _⟩ => show win2_1.index t (1 : Fin 2) * 128 + 1 * k.val = k.val; omega

/-- An index of the output array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v47).slice (win2_6.rect t)).set ↔ _
  rw [View.set_slice_whole, Rect.mem_set_unit]
  exact Iff.rfl

/-- Row r is in the block of point r / 5000: the twenty blocks cover the array. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have hlt : (i 0).val / 5000 < cfg2.N := by rw [hN]; omega
  refine ⟨⟨(i 0).val / 5000, hlt⟩, flush2_6 _, ?_⟩
  rw [mem_blk]
  obtain ⟨-, -, -, -, -, -, -, -, -, -, -, -, e60, e61, -⟩ := idx_facts ⟨(i 0).val / 5000, hlt⟩
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win2_6.index ⟨(i 0).val / 5000, hlt⟩ (1 : Fin 2) * 128 ≤ (i 1).val ∧ (i 1).val < win2_6.index ⟨(i 0).val / 5000, hlt⟩ (1 : Fin 2) * 128 + 128
    rw [e61]; omega

/-- The output array after the region is the dense stage of the region's input arrays. -/
theorem final (c : Dev nD) :
    (dat2 V c).arrAt 6 cfg2.N
      = Cert.Stages.layerCore (V c main_v26) (V c main_v36) (V c main_v44) (V c main_v39) (V c main_v46) (V c main_v42) :=
  (dat2 V c).arrAt_eq_of_cover 6 _ (fun t _ => flushed V c t) cover

end Cert.KernelIdeal.Region2

end
-- ==== Proof.Region3.lean ====
/-
  Convolution 3's dense part as a region of twenty row tiles.  Grid point t reads rows 5000·t … 5000·t + 4999 of the node
  features and of the neighbour aggregate, the two whole weight matrices and the two bias rows, and writes the same rows
  of the output.  An output entry depends only on its own node's row, so the tile's entry is the whole-array stage's
  entry; the twenty tiles cover the 100000 rows, and the output array after the region is the stage of the region's
  input arrays.
-/
import proofs.«142797_j21234318312262_1_alg».proof.Proof.Gen.KernelIdeal.Frame
import proofs.«142797_j21234318312262_1_alg».proof.Proof.TileAt
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row t, the weights and biases at block
    (0, 0), and there are twenty points. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 20 :=
  (by decide +kernel : ∀ t : Fin grid3.N, _)

set_option maxHeartbeats 2000000 in
/-- What point t writes back is block t of the stage of the region's input arrays. -/
theorem flushed (c : Dev nD) (t : Fin cfg3.N) :
    (dat3 V c).flushed 6 t = ((cfg3.win 6).blk t).view.read (Elt Ideal)
      (Cert.Stages.layerCore (V c main_v47) (V c main_v57) (V c main_v65) (V c main_v60) (V c main_v67) (V c main_v63)) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, ht⟩ := idx_facts t
  have hW1 : iblk3 V c 2 t = V c main_v65 := by
    funext y
    show V c main_v65 (((cfg3.win 2).blk t).view.emb y) = V c main_v65 y
    refine congrArg (V c main_v65) (funext fun d => Fin.ext ?_)
    match d with
    | ⟨0, _⟩ => show win3_2.index t (0 : Fin 2) * 128 + 1 * (y 0).val = (y 0).val; omega
    | ⟨1, _⟩ => show win3_2.index t (1 : Fin 2) * 128 + 1 * (y 1).val = (y 1).val; omega
  have hB1 : iblk3 V c 3 t = V c main_v60 := by
    funext y
    show V c main_v60 (((cfg3.win 3).blk t).view.emb y) = V c main_v60 y
    refine congrArg (V c main_v60) (funext fun d => Fin.ext ?_)
    match d with
    | ⟨0, _⟩ => show win3_3.index t (0 : Fin 2) * 1 + 1 * (y 0).val = (y 0).val; omega
    | ⟨1, _⟩ => show win3_3.index t (1 : Fin 2) * 128 + 1 * (y 1).val = (y 1).val; omega
  have hW2 : iblk3 V c 4 t = V c main_v67 := by
    funext y
    show V c main_v67 (((cfg3.win 4).blk t).view.emb y) = V c main_v67 y
    refine congrArg (V c main_v67) (funext fun d => Fin.ext ?_)
    match d with
    | ⟨0, _⟩ => show win3_4.index t (0 : Fin 2) * 128 + 1 * (y 0).val = (y 0).val; omega
    | ⟨1, _⟩ => show win3_4.index t (1 : Fin 2) * 128 + 1 * (y 1).val = (y 1).val; omega
  have hB2 : iblk3 V c 5 t = V c main_v63 := by
    funext y
    show V c main_v63 (((cfg3.win 5).blk t).view.emb y) = V c main_v63 y
    refine congrArg (V c main_v63) (funext fun d => Fin.ext ?_)
    match d with
    | ⟨0, _⟩ => show win3_5.index t (0 : Fin 2) * 1 + 1 * (y 0).val = (y 0).val; omega
    | ⟨1, _⟩ => show win3_5.index t (1 : Fin 2) * 128 + 1 * (y 1).val = (y 1).val; omega
  funext j
  have hj0 : (j 0).val < 5000 := (j 0).isLt
  have hj1 : (j 1).val < 128 := (j 1).isLt
  have hc : ((((cfg3.win 6).blk t).view.emb j) 1).val = (j 1).val := by
    show win3_6.index t (1 : Fin 2) * 128 + 1 * (j 1).val = (j 1).val; omega
  have hr : ((((cfg3.win 6).blk t).view.emb j) 0).val = t.val * 5000 + (j 0).val := by
    show win3_6.index t (0 : Fin 2) * 5000 + 1 * (j 0).val = t.val * 5000 + (j 0).val; omega
  refine Cert.TileAt.layer_at (V c main_v47) (V c main_v57) (V c main_v65) (V c main_v60) (V c main_v67) (V c main_v63)
    (iblk3 V c 0 t) (iblk3 V c 1 t) (iblk3 V c 2 t) (iblk3 V c 3 t) (iblk3 V c 4 t) (iblk3 V c 5 t)
    j (((cfg3.win 6).blk t).view.emb j) hc (fun k => ?_) (fun k => ?_) hW1 hB1 hW2 hB2
  · show V c main_v47 (((cfg3.win 0).blk t).view.emb (ix2 (⟨(j 0).val, (j 0).isLt⟩ : Fin 5000) k)) = V c main_v47 _
    refine congrArg (V c main_v47) (funext fun d => Fin.ext ?_)
    match d with
    | ⟨0, _⟩ => show win3_0.index t (0 : Fin 2) * 5000 + 1 * (j 0).val = ((((cfg3.win 6).blk t).view.emb j) 0).val; rw [hr]; omega
    | ⟨1, _⟩ => show win3_0.index t (1 : Fin 2) * 128 + 1 * k.val = k.val; omega
  · show V c main_v57 (((cfg3.win 1).blk t).view.emb (ix2 (⟨(j 0).val, (j 0).isLt⟩ : Fin 5000) k)) = V c main_v57 _
    refine congrArg (V c main_v57) (funext fun d => Fin.ext ?_)
    match d with
    | ⟨0, _⟩ => show win3_1.index t (0 : Fin 2) * 5000 + 1 * (j 0).val = ((((cfg3.win 6).blk t).view.emb j) 0).val; rw [hr]; omega
    | ⟨1, _⟩ => show win3_1.index t (1 : Fin 2) * 128 + 1 * k.val = k.val; omega

/-- An index of the output array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v68).slice (win3_6.rect t)).set ↔ _
  rw [View.set_slice_whole, Rect.mem_set_unit]
  exact Iff.rfl

/-- Row r is in the block of point r / 5000: the twenty blocks cover the array. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  have hlt : (i 0).val / 5000 < cfg3.N := by rw [hN]; omega
  refine ⟨⟨(i 0).val / 5000, hlt⟩, flush3_6 _, ?_⟩
  rw [mem_blk]
  obtain ⟨-, -, -, -, -, -, -, -, -, -, -, -, e60, e61, -⟩ := idx_facts ⟨(i 0).val / 5000, hlt⟩
  intro a
  match a with
  | ⟨0, _⟩ =>
    show win3_6.index ⟨(i 0).val / 5000, hlt⟩ (0 : Fin 2) * 5000 ≤ (i 0).val ∧ (i 0).val < win3_6.index ⟨(i 0).val / 5000, hlt⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, hlt⟩ (1 : Fin 2) * 128 ≤ (i 1).val ∧ (i 1).val < win3_6.index ⟨(i 0).val / 5000, hlt⟩ (1 : Fin 2) * 128 + 128
    rw [e61]; omega

/-- The output array after the region is the dense stage of the region's input arrays. -/
theorem final (c : Dev nD) :
    (dat3 V c).arrAt 6 cfg3.N
      = Cert.Stages.layerCore (V c main_v47) (V c main_v57) (V c main_v65) (V c main_v60) (V c main_v67) (V c main_v63) :=
  (dat3 V c).arrAt_eq_of_cover 6 _ (fun t _ => flushed V c t) cover

end Cert.KernelIdeal.Region3

end
-- ==== Proof.Region4.lean ====
/-
  The read-out as a region of one grid point.  The point reads the whole pooled feature matrix, the shared layer's
  weight and bias row, and each head's column weight and bias cell; it writes the two 2000 × 1 columns.  Every window is
  its whole array, so the body's payloads at an index are the read-out stages of the region's input arrays.
-/
import proofs.«142797_j21234318312262_1_alg».proof.Proof.Gen.KernelIdeal.Frame
import proofs.«142797_j21234318312262_1_alg».proof.Proof.TileAt
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: every window sits at block (0, 0). -/
theorem idx_facts : ∀ t : Fin cfg4.N,
      win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

set_option maxHeartbeats 2000000 in
/-- What the one point writes back into output 7 is the read-out column of the region's input arrays. -/
theorem flushed7 (c : Dev nD) (t : Fin cfg4.N) :
    (dat4 V c).flushed 7 t = ((cfg4.win 7).blk t).view.read (Elt Ideal)
      (Cert.Stages.headOut (Cert.Stages.headHidden (V c main_v80) (V c main_arg9) (V c main_v81)) (V c main_arg11) (V c main_v82)) := by
  show (cfg4.win 7).cut (grid4.coords t) ((dat4 V c).after 7 t) = _
  rw [after4_7]
  unfold out4_7
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51, e60, e61, e70, e71, e80, e81⟩ := idx_facts t
  have h0 : iblk4 V c 0 t = V c main_v80 := by
    funext y
    show V c main_v80 (((cfg4.win 0).blk t).view.emb y) = V c main_v80 y
    refine congrArg (V c main_v80) (funext fun d => Fin.ext ?_)
    match d with
    | ⟨0, _⟩ => show win4_0.index t (0 : Fin 2) * 2000 + 1 * (y 0).val = (y 0).val; omega
    | ⟨1, _⟩ => show win4_0.index t (1 : Fin 2) * 128 + 1 * (y 1).val = (y 1).val; omega
  have h1 : iblk4 V c 1 t = V c main_arg9 := by
    funext y
    show V c main_arg9 (((cfg4.win 1).blk t).view.emb y) = V c main_arg9 y
    refine congrArg (V c main_arg9) (funext fun d => Fin.ext ?_)
    match d with
    | ⟨0, _⟩ => show win4_1.index t (0 : Fin 2) * 128 + 1 * (y 0).val = (y 0).val; omega
    | ⟨1, _⟩ => show win4_1.index t (1 : Fin 2) * 128 + 1 * (y 1).val = (y 1).val; omega
  have h2 : iblk4 V c 2 t = V c main_v81 := by
    funext y
    show V c main_v81 (((cfg4.win 2).blk t).view.emb y) = V c main_v81 y
    refine congrArg (V c main_v81) (funext fun d => Fin.ext ?_)
    match d with
    | ⟨0, _⟩ => show win4_2.index t (0 : Fin 2) * 1 + 1 * (y 0).val = (y 0).val; omega
    | ⟨1, _⟩ => show win4_2.index t (1 : Fin 2) * 128 + 1 * (y 1).val = (y 1).val; omega
  have h3 : iblk4 V c 3 t = V c main_arg11 := by
    funext y
    show V c main_arg11 (((cfg4.win 3).blk t).view.emb y) = V c main_arg11 y
    refine congrArg (V c main_arg11) (funext fun d => Fin.ext ?_)
    match d with
    | ⟨0, _⟩ => show win4_3.index t (0 : Fin 2) * 128 + 1 * (y 0).val = (y 0).val; omega
    | ⟨1, _⟩ => show win4_3.index t (1 : Fin 2) * 1 + 1 * (y 1).val = (y 1).val; omega
  have h4 : iblk4 V c 4 t = V c main_v82 := by
    funext y
    show V c main_v82 (((cfg4.win 4).blk t).view.emb y) = V c main_v82 y
    refine congrArg (V c main_v82) (funext fun d => Fin.ext ?_)
    match d with
    | ⟨0, _⟩ => show win4_4.index t (0 : Fin 2) * 1 + 1 * (y 0).val = (y 0).val; omega
    | ⟨1, _⟩ => show win4_4.index t (1 : Fin 2) * 1 + 1 * (y 1).val = (y 1).val; omega
  funext j
  have hyi : j = ((cfg4.win 7).blk t).view.emb j := by
    funext d; apply Fin.ext
    match d with
    | ⟨0, _⟩ => show (j 0).val = win4_7.index t (0 : Fin 2) * 2000 + 1 * (j 0).val; omega
    | ⟨1, _⟩ => show (j 1).val = win4_7.index t (1 : Fin 2) * 1 + 1 * (j 1).val; omega
  exact Cert.TileAt.head_at (V c main_v80) (V c main_arg9) (V c main_v81) (V c main_arg11) (V c main_v82)
    (iblk4 V c 0 t) (iblk4 V c 1 t) (iblk4 V c 2 t) (iblk4 V c 3 t) (iblk4 V c 4 t)
    j (((cfg4.win 7).blk t).view.emb j) hyi h0 h1 h2 h3 h4

/-- An index of output 7's array is in the one block iff each coordinate is in the block's range on its axis. -/
theorem mem_blk7 (t : Fin cfg4.N) (i : S2000x1.Idx) :
    i ∈ ((cfg4.win 7).blk t).view.set ↔ ∀ a : Fin 2, win4_7.index t a * S2000x1.size a ≤ (i a).val ∧ (i a).val < win4_7.index t a * S2000x1.size a + S2000x1.size a := by
  show i ∈ ((View.whole main_v84_0).slice (win4_7.rect t)).set ↔ _
  rw [View.set_slice_whole, Rect.mem_set_unit]
  exact Iff.rfl

/-- The one block is the whole array. -/
theorem cover7 (i : S2000x1.Idx) :
    ∃ t : Fin cfg4.N, (cfg4.win 7).flush t = true ∧ i ∈ ((cfg4.win 7).blk t).view.set := by
  have hi0 : (i 0).val < 2000 := (i 0).isLt
  have hi1 : (i 1).val < 1 := (i 1).isLt
  have hN : cfg4.N = 1 := N_4
  have hlt : 0 < cfg4.N := by rw [hN]; omega
  refine ⟨⟨0, hlt⟩, flush4_7 _, ?_⟩
  rw [mem_blk7]
  obtain ⟨-, -, -, -, -, -, -, -, -, -, -, -, -, -, e70, e71, e80, e81⟩ := idx_facts ⟨0, hlt⟩
  intro a
  match a with
  | ⟨0, _⟩ =>
    show win4_7.index ⟨0, hlt⟩ (0 : Fin 2) * 2000 ≤ (i 0).val ∧ (i 0).val < win4_7.index ⟨0, hlt⟩ (0 : Fin 2) * 2000 + 2000
    rw [e70]; omega
  | ⟨1, _⟩ =>
    show win4_7.index ⟨0, hlt⟩ (1 : Fin 2) * 1 ≤ (i 1).val ∧ (i 1).val < win4_7.index ⟨0, hlt⟩ (1 : Fin 2) * 1 + 1
    rw [e71]; omega

/-- Output 7's array after the region is the read-out column of the region's input arrays. -/
theorem final7 (c : Dev nD) :
    (dat4 V c).arrAt 7 cfg4.N
      = Cert.Stages.headOut (Cert.Stages.headHidden (V c main_v80) (V c main_arg9) (V c main_v81)) (V c main_arg11) (V c main_v82) :=
  (dat4 V c).arrAt_eq_of_cover 7 _ (fun t _ => flushed7 V c t) cover7

set_option maxHeartbeats 2000000 in
/-- What the one point writes back into output 8 is the read-out column of the region's input arrays. -/
theorem flushed8 (c : Dev nD) (t : Fin cfg4.N) :
    (dat4 V c).flushed 8 t = ((cfg4.win 8).blk t).view.read (Elt Ideal)
      (Cert.Stages.headOut (Cert.Stages.headHidden (V c main_v80) (V c main_arg9) (V c main_v81)) (V c main_arg13) (V c main_v83)) := by
  show (cfg4.win 8).cut (grid4.coords t) ((dat4 V c).after 8 t) = _
  rw [after4_8]
  unfold out4_8
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51, e60, e61, e70, e71, e80, e81⟩ := idx_facts t
  have h0 : iblk4 V c 0 t = V c main_v80 := by
    funext y
    show V c main_v80 (((cfg4.win 0).blk t).view.emb y) = V c main_v80 y
    refine congrArg (V c main_v80) (funext fun d => Fin.ext ?_)
    match d with
    | ⟨0, _⟩ => show win4_0.index t (0 : Fin 2) * 2000 + 1 * (y 0).val = (y 0).val; omega
    | ⟨1, _⟩ => show win4_0.index t (1 : Fin 2) * 128 + 1 * (y 1).val = (y 1).val; omega
  have h1 : iblk4 V c 1 t = V c main_arg9 := by
    funext y
    show V c main_arg9 (((cfg4.win 1).blk t).view.emb y) = V c main_arg9 y
    refine congrArg (V c main_arg9) (funext fun d => Fin.ext ?_)
    match d with
    | ⟨0, _⟩ => show win4_1.index t (0 : Fin 2) * 128 + 1 * (y 0).val = (y 0).val; omega
    | ⟨1, _⟩ => show win4_1.index t (1 : Fin 2) * 128 + 1 * (y 1).val = (y 1).val; omega
  have h2 : iblk4 V c 2 t = V c main_v81 := by
    funext y
    show V c main_v81 (((cfg4.win 2).blk t).view.emb y) = V c main_v81 y
    refine congrArg (V c main_v81) (funext fun d => Fin.ext ?_)
    match d with
    | ⟨0, _⟩ => show win4_2.index t (0 : Fin 2) * 1 + 1 * (y 0).val = (y 0).val; omega
    | ⟨1, _⟩ => show win4_2.index t (1 : Fin 2) * 128 + 1 * (y 1).val = (y 1).val; omega
  have h3 : iblk4 V c 5 t = V c main_arg13 := by
    funext y
    show V c main_arg13 (((cfg4.win 5).blk t).view.emb y) = V c main_arg13 y
    refine congrArg (V c main_arg13) (funext fun d => Fin.ext ?_)
    match d with
    | ⟨0, _⟩ => show win4_5.index t (0 : Fin 2) * 128 + 1 * (y 0).val = (y 0).val; omega
    | ⟨1, _⟩ => show win4_5.index t (1 : Fin 2) * 1 + 1 * (y 1).val = (y 1).val; omega
  have h4 : iblk4 V c 6 t = V c main_v83 := by
    funext y
    show V c main_v83 (((cfg4.win 6).blk t).view.emb y) = V c main_v83 y
    refine congrArg (V c main_v83) (funext fun d => Fin.ext ?_)
    match d with
    | ⟨0, _⟩ => show win4_6.index t (0 : Fin 2) * 1 + 1 * (y 0).val = (y 0).val; omega
    | ⟨1, _⟩ => show win4_6.index t (1 : Fin 2) * 1 + 1 * (y 1).val = (y 1).val; omega
  funext j
  have hyi : j = ((cfg4.win 8).blk t).view.emb j := by
    funext d; apply Fin.ext
    match d with
    | ⟨0, _⟩ => show (j 0).val = win4_8.index t (0 : Fin 2) * 2000 + 1 * (j 0).val; omega
    | ⟨1, _⟩ => show (j 1).val = win4_8.index t (1 : Fin 2) * 1 + 1 * (j 1).val; omega
  exact Cert.TileAt.head_at (V c main_v80) (V c main_arg9) (V c main_v81) (V c main_arg13) (V c main_v83)
    (iblk4 V c 0 t) (iblk4 V c 1 t) (iblk4 V c 2 t) (iblk4 V c 5 t) (iblk4 V c 6 t)
    j (((cfg4.win 8).blk t).view.emb j) hyi h0 h1 h2 h3 h4

/-- An index of output 8's array is in the one block iff each coordinate is in the block's range on its axis. -/
theorem mem_blk8 (t : Fin cfg4.N) (i : S2000x1.Idx) :
    i ∈ ((cfg4.win 8).blk t).view.set ↔ ∀ a : Fin 2, win4_8.index t a * S2000x1.size a ≤ (i a).val ∧ (i a).val < win4_8.index t a * S2000x1.size a + S2000x1.size a := by
  show i ∈ ((View.whole main_v84_1).slice (win4_8.rect t)).set ↔ _
  rw [View.set_slice_whole, Rect.mem_set_unit]
  exact Iff.rfl

/-- The one block is the whole array. -/
theorem cover8 (i : S2000x1.Idx) :
    ∃ t : Fin cfg4.N, (cfg4.win 8).flush t = true ∧ i ∈ ((cfg4.win 8).blk t).view.set := by
  have hi0 : (i 0).val < 2000 := (i 0).isLt
  have hi1 : (i 1).val < 1 := (i 1).isLt
  have hN : cfg4.N = 1 := N_4
  have hlt : 0 < cfg4.N := by rw [hN]; omega
  refine ⟨⟨0, hlt⟩, flush4_8 _, ?_⟩
  rw [mem_blk8]
  obtain ⟨-, -, -, -, -, -, -, -, -, -, -, -, -, -, e70, e71, e80, e81⟩ := idx_facts ⟨0, hlt⟩
  intro a
  match a with
  | ⟨0, _⟩ =>
    show win4_8.index ⟨0, hlt⟩ (0 : Fin 2) * 2000 ≤ (i 0).val ∧ (i 0).val < win4_8.index ⟨0, hlt⟩ (0 : Fin 2) * 2000 + 2000
    rw [e80]; omega
  | ⟨1, _⟩ =>
    show win4_8.index ⟨0, hlt⟩ (1 : Fin 2) * 1 ≤ (i 1).val ∧ (i 1).val < win4_8.index ⟨0, hlt⟩ (1 : Fin 2) * 1 + 1
    rw [e81]; omega

/-- Output 8's array after the region is the read-out column of the region's input arrays. -/
theorem final8 (c : Dev nD) :
    (dat4 V c).arrAt 8 cfg4.N
      = Cert.Stages.headOut (Cert.Stages.headHidden (V c main_v80) (V c main_arg9) (V c main_v81)) (V c main_arg13) (V c main_v83) :=
  (dat4 V c).arrAt_eq_of_cover 8 _ (fun t _ => flushed8 V c t) cover8

end Cert.KernelIdeal.Region4

end
-- ==== Proof.Fold.lean ====
/-
  The kernel program's buffers, boundary by boundary.  The program alternates stretches of host operations with five
  pipelined regions; the buffer contents at each boundary are a fold from the launch memory.  Reading that fold at the
  buffers each region takes and at the buffer it leaves shows that every region's output array is a stage of the
  network applied to the launch contents of the arguments: the projection, the three convolutions (the neighbour
  aggregation is the host's gather and scatter-add, the same operations the reference applies), the per-graph mean
  and the read-outs.
-/
import proofs.«142797_j21234318312262_1_alg».proof.Proof.Gen.KernelIdeal.Frame
import proofs.«142797_j21234318312262_1_alg».proof.Proof.Stages
import proofs.«142797_j21234318312262_1_alg».proof.Proof.RefStages
import proofs.«142797_j21234318312262_1_alg».proof.Proof.Region0
import proofs.«142797_j21234318312262_1_alg».proof.Proof.Region1
import proofs.«142797_j21234318312262_1_alg».proof.Proof.Region2
import proofs.«142797_j21234318312262_1_alg».proof.Proof.Region3
import proofs.«142797_j21234318312262_1_alg».proof.Proof.Region4
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- A vector of 128 entries cast to a 1 × 128 row is the row the host's broadcast along axis 1 makes of it. -/
theorem castRow (v : FVec Ideal S128 .f32) (h : S128.ShapeCasts S1x128) :
    shapeCast S1x128 v h = Cert.Stages.biasRow v := by
  funext j
  refine (shapeCast_addUnit_apply ![128] v h j).trans ?_
  refine (broadcastInDim_apply (s := S128) (t := S1x128) ![1] _ v j (fun a => j a.succ) (fun a => ?_)).symm
  match a with
  | ⟨0, _⟩ => show (j 1).val = if (128 : Nat) = 1 then 0 else (j 1).val; rw [if_neg (by decide)]

/-- A one-entry vector cast to a 1 × 1 cell is the cell the host's broadcast along axis 1 makes of it. -/
theorem castCell (v : FVec Ideal S1 .f32) (h : S1.ShapeCasts S1x1) :
    shapeCast S1x1 v h = Cert.Stages.biasCell v := by
  funext j
  refine (shapeCast_addUnit_apply ![1] v h j).trans ?_
  refine (broadcastInDim_apply (s := S1) (t := S1x1) ![1] _ v j (fun a => j a.succ) (fun a => ?_)).symm
  match a with
  | ⟨0, _⟩ =>
    show (j 1).val = if (1 : Nat) = 1 then 0 else (j 1).val
    have h1 : (j 1).val < 1 := (j 1).isLt
    rw [if_pos rfl]; omega

variable (m : (ℓ : Loc nD τ sig) → Buf (Elt Ideal) ℓ) (ρ : Dev nD → PrngReg) (c : Dev nD)

/-- The edges' sources as launched, before a negative id is wrapped. -/
def rawSrc (ei : Vec Ideal S2x1600000 .i32) : Vec Ideal S1600000 .i32 :=
  shapeCast _ (extractStridedSlice S1x1600000 ![0, 0] ei slices_S2x1600000_S1x1600000_0_0) shapeCasts_S1x1600000_S1600000

/-! ## Before region 0: the edge lists and the projection's bias row -/

theorem W1_v1 : W1 m ρ c (Proc.devRef .tc main_v1) = rawSrc (m ((c : Thread nD τ).loc main_arg1)) := by
  show StableHlo.after hostOps0 (W0 m ρ c) (Proc.devRef .tc main_v1) = _
  after_results
  rfl
theorem W1_v3 : W1 m ρ c (Proc.devRef .tc main_v3) = Cert.Stages.dstIdx (m ((c : Thread nD τ).loc main_arg1)) := by
  show StableHlo.after hostOps0 (W0 m ρ c) (Proc.devRef .tc main_v3) = _
  after_results
  rfl
theorem W1_v4 : W1 m ρ c (Proc.devRef .tc main_v4) = Cert.Stages.biasRow (m ((c : Thread nD τ).loc main_arg4)) := by
  show StableHlo.after hostOps0 (W0 m ρ c) (Proc.devRef .tc main_v4) = _
  after_results
  exact castRow _ _
theorem W1_arg (b : Ref sig .tc) (hb : b ∈ [main_arg0, main_arg2, main_arg3, main_arg5, main_arg6, main_arg7, main_arg8, main_arg9, main_arg10, main_arg11, main_arg12, main_arg13, main_arg14]) :
    W1 m ρ c (Proc.devRef .tc b) = m ((c : Thread nD τ).loc b) := by
  simp only [List.mem_cons, List.not_mem_nil, or_false] at hb
  rcases hb with rfl | rfl | rfl | rfl | rfl | rfl | rfl | rfl | rfl | rfl | rfl | rfl | rfl <;>
  · show StableHlo.after hostOps0 (W0 m ρ c) (Proc.devRef .tc _) = _
    after_results <;> rfl

/-- The buffers that pass untouched from the first host stretch on: the edge lists and the arguments later stages read. -/
abbrev Lp : List (Ref sig .tc) := [main_v1, main_v3, main_arg2, main_arg5, main_arg6, main_arg7, main_arg8, main_arg9, main_arg10, main_arg11, main_arg12, main_arg13, main_arg14]

local macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## What no later step writes keeps its contents -/

theorem W2_W1 (b : Ref sig .tc) (hb : b ∈ Lp) :
    W2 m ρ c (Proc.devRef .tc b) = W1 m ρ c (Proc.devRef .tc b) := by
  simp only [Lp, List.mem_cons, List.not_mem_nil, or_false] at hb
  rcases hb with rfl | rfl | rfl | rfl | rfl | rfl | rfl | rfl | rfl | rfl | rfl | rfl | rfl <;> exact W2_of_ne m ρ c _ (by decide)

theorem W3_W2 (b : Ref sig .tc) (hb : b ∈ Lp) :
    W3 m ρ c (Proc.devRef .tc b) = W2 m ρ c (Proc.devRef .tc b) := by
  simp only [Lp, List.mem_cons, List.not_mem_nil, or_false] at hb
  rcases hb with rfl | rfl | rfl | rfl | rfl | rfl | rfl | rfl | rfl | rfl | rfl | rfl | rfl <;> host_keeps hostOps1
theorem W3_W1 (b : Ref sig .tc) (hb : b ∈ Lp) :
    W3 m ρ c (Proc.devRef .tc b) = W1 m ρ c (Proc.devRef .tc b) :=
  (W3_W2 m ρ c b hb).trans (W2_W1 m ρ c b hb)
theorem W4_W3 (b : Ref sig .tc) (hb : b ∈ Lp) :
    W4 m ρ c (Proc.devRef .tc b) = W3 m ρ c (Proc.devRef .tc b) := by
  simp only [Lp, List.mem_cons, List.not_mem_nil, or_false] at hb
  rcases hb with rfl | rfl | rfl | rfl | rfl | rfl | rfl | rfl | rfl | rfl | rfl | rfl | rfl <;> exact W4_of_ne m ρ c _ (by decide)
theorem W4_W1 (b : Ref sig .tc) (hb : b ∈ Lp) :
    W4 m ρ c (Proc.devRef .tc b) = W1 m ρ c (Proc.devRef .tc b) :=
  (W4_W3 m ρ c b hb).trans (W3_W1 m ρ c b hb)
theorem W5_W4 (b : Ref sig .tc) (hb : b ∈ Lp) :
    W5 m ρ c (Proc.devRef .tc b) = W4 m ρ c (Proc.devRef .tc b) := by
  simp only [Lp, List.mem_cons, List.not_mem_nil, or_false] at hb
  rcases hb with rfl | rfl | rfl | rfl | rfl | rfl | rfl | rfl | rfl | rfl | rfl | rfl | rfl <;> host_keeps hostOps2
theorem W5_W1 (b : Ref sig .tc) (hb : b ∈ Lp) :
    W5 m ρ c (Proc.devRef .tc b) = W1 m ρ c (Proc.devRef .tc b) :=
  (W5_W4 m ρ c b hb).trans (W4_W1 m ρ c b hb)
theorem W6_W5 (b : Ref sig .tc) (hb : b ∈ Lp) :
    W6 m ρ c (Proc.devRef .tc b) = W5 m ρ c (Proc.devRef .tc b) := by
  simp only [Lp, List.mem_cons, List.not_mem_nil, or_false] at hb
  rcases hb with rfl | rfl | rfl | rfl | rfl | rfl | rfl | rfl | rfl | rfl | rfl | rfl | rfl <;> exact W6_of_ne m ρ c _ (by decide)
theorem W6_W1 (b : Ref sig .tc) (hb : b ∈ Lp) :
    W6 m ρ c (Proc.devRef .tc b) = W1 m ρ c (Proc.devRef .tc b) :=
  (W6_W5 m ρ c b hb).trans (W5_W1 m ρ c b hb)
theorem W7_W6 (b : Ref sig .tc) (hb : b ∈ Lp) :
    W7 m ρ c (Proc.devRef .tc b) = W6 m ρ c (Proc.devRef .tc b) := by
  simp only [Lp, List.mem_cons, List.not_mem_nil, or_false] at hb
  rcases hb with rfl | rfl | rfl | rfl | rfl | rfl | rfl | rfl | rfl | rfl | rfl | rfl | rfl <;> host_keeps hostOps3
theorem W7_W1 (b : Ref sig .tc) (hb : b ∈ Lp) :
    W7 m ρ c (Proc.devRef .tc b) = W1 m ρ c (Proc.devRef .tc b) :=
  (W7_W6 m ρ c b hb).trans (W6_W1 m ρ c b hb)
theorem W8_W7 (b : Ref sig .tc) (hb : b ∈ Lp) :
    W8 m ρ c (Proc.devRef .tc b) = W7 m ρ c (Proc.devRef .tc b) := by
  simp only [Lp, List.mem_cons, List.not_mem_nil, or_false] at hb
  rcases hb with rfl | rfl | rfl | rfl | rfl | rfl | rfl | rfl | rfl | rfl | rfl | rfl | rfl <;> exact W8_of_ne m ρ c _ (by decide)
theorem W8_W1 (b : Ref sig .tc) (hb : b ∈ Lp) :
    W8 m ρ c (Proc.devRef .tc b) = W1 m ρ c (Proc.devRef .tc b) :=
  (W8_W7 m ρ c b hb).trans (W7_W1 m ρ c b hb)
theorem W9_W8 (b : Ref sig .tc) (hb : b ∈ Lp) :
    W9 m ρ c (Proc.devRef .tc b) = W8 m ρ c (Proc.devRef .tc b) := by
  simp only [Lp, List.mem_cons, List.not_mem_nil, or_false] at hb
  rcases hb with rfl | rfl | rfl | rfl | rfl | rfl | rfl | rfl | rfl | rfl | rfl | rfl | rfl <;> host_keeps hostOps4
theorem W9_W1 (b : Ref sig .tc) (hb : b ∈ Lp) :
    W9 m ρ c (Proc.devRef .tc b) = W1 m ρ c (Proc.devRef .tc b) :=
  (W9_W8 m ρ c b hb).trans (W8_W1 m ρ c b hb)

/-! ## The stages' values -/

/-- The projected node features. -/
def H0 (m : (ℓ : Loc nD τ sig) → Buf (Elt Ideal) ℓ) (c : Dev nD) : FVec Ideal Cert.ReferenceIdeal.S100000x128 .f32 :=
  Cert.Stages.proj (m ((c : Thread nD τ).loc main_arg0)) (m ((c : Thread nD τ).loc main_arg3)) (m ((c : Thread nD τ).loc main_arg4))
/-- The node features after the first convolution. -/
def H1 (m : (ℓ : Loc nD τ sig) → Buf (Elt Ideal) ℓ) (c : Dev nD) : FVec Ideal Cert.ReferenceIdeal.S100000x128 .f32 :=
  Cert.Stages.conv (m ((c : Thread nD τ).loc main_arg1)) (H0 m c) (Cert.Stages.w0 (m ((c : Thread nD τ).loc main_arg5))) (Cert.Stages.biasRow (Cert.Stages.b0 (m ((c : Thread nD τ).loc main_arg6))))
    (Cert.Stages.w0 (m ((c : Thread nD τ).loc main_arg7))) (Cert.Stages.biasRow (Cert.Stages.b0 (m ((c : Thread nD τ).loc main_arg8))))
/-- After the second. -/
def H2 (m : (ℓ : Loc nD τ sig) → Buf (Elt Ideal) ℓ) (c : Dev nD) : FVec Ideal Cert.ReferenceIdeal.S100000x128 .f32 :=
  Cert.Stages.conv (m ((c : Thread nD τ).loc main_arg1)) (H1 m c) (Cert.Stages.w1 (m ((c : Thread nD τ).loc main_arg5))) (Cert.Stages.biasRow (Cert.Stages.b1 (m ((c : Thread nD τ).loc main_arg6))))
    (Cert.Stages.w1 (m ((c : Thread nD τ).loc main_arg7))) (Cert.Stages.biasRow (Cert.Stages.b1 (m ((c : Thread nD τ).loc main_arg8))))
/-- After the third. -/
def H3 (m : (ℓ : Loc nD τ sig) → Buf (Elt Ideal) ℓ) (c : Dev nD) : FVec Ideal Cert.ReferenceIdeal.S100000x128 .f32 :=
  Cert.Stages.conv (m ((c : Thread nD τ).loc main_arg1)) (H2 m c) (Cert.Stages.w2 (m ((c : Thread nD τ).loc main_arg5))) (Cert.Stages.biasRow (Cert.Stages.b2 (m ((c : Thread nD τ).loc main_arg6))))
    (Cert.Stages.w2 (m ((c : Thread nD τ).loc main_arg7))) (Cert.Stages.biasRow (Cert.Stages.b2 (m ((c : Thread nD τ).loc main_arg8))))

/-! ## Region 0: the projection -/

theorem W2_main_v5 : W2 m ρ c (Proc.devRef .tc main_v5) = H0 m c := by
  refine (W2_arr m ρ c 3).trans ((Cert.KernelIdeal.Region0.final (V1 m ρ) c).trans ?_)
  show Cert.Stages.projCore (W1 m ρ c (Proc.devRef .tc main_arg0)) (W1 m ρ c (Proc.devRef .tc main_arg3)) (W1 m ρ c (Proc.devRef .tc main_v4)) = _
  rw [W1_arg m ρ c main_arg0 (by simp), W1_arg m ρ c main_arg3 (by simp), W1_v4 m ρ c]
  rfl

/-! ## Convolution 1: the host stretch before region 1, and the region -/

theorem W3_main_v5 : W3 m ρ c (Proc.devRef .tc main_v5) = H0 m c :=
  (by host_keeps hostOps1 : W3 m ρ c (Proc.devRef .tc main_v5) = W2 m ρ c (Proc.devRef .tc main_v5)).trans (W2_main_v5 m ρ c)

set_option maxHeartbeats 4000000 in
theorem W3_main_v15 : W3 m ρ c (Proc.devRef .tc main_v15) = Cert.Stages.agg (m ((c : Thread nD τ).loc main_arg1)) (H0 m c) := by
  show StableHlo.after hostOps1 (W2 m ρ c) (Proc.devRef .tc main_v15) = _
  after_results_simp
  rw [(W2_W1 m ρ c main_v1 (by simp [Lp])).trans (W1_v1 m ρ c), (W2_W1 m ρ c main_v3 (by simp [Lp])).trans (W1_v3 m ρ c), W2_main_v5 m ρ c]
  rfl

theorem W3_main_v23 : W3 m ρ c (Proc.devRef .tc main_v23) = Cert.Stages.w0 (m ((c : Thread nD τ).loc main_arg5)) := by
  show StableHlo.after hostOps1 (W2 m ρ c) (Proc.devRef .tc main_v23) = _
  after_results
  rw [((W2_W1 m ρ c main_arg5 (by simp [Lp])).trans (W1_arg m ρ c main_arg5 (by simp)))]
  rfl

theorem W3_main_v18 : W3 m ρ c (Proc.devRef .tc main_v18) = Cert.Stages.biasRow (Cert.Stages.b0 (m ((c : Thread nD τ).loc main_arg6))) := by
  show StableHlo.after hostOps1 (W2 m ρ c) (Proc.devRef .tc main_v18) = _
  after_results
  rw [((W2_W1 m ρ c main_arg6 (by simp [Lp])).trans (W1_arg m ρ c main_arg6 (by simp)))]
  exact castRow _ _

theorem W3_main_v25 : W3 m ρ c (Proc.devRef .tc main_v25) = Cert.Stages.w0 (m ((c : Thread nD τ).loc main_arg7)) := by
  show StableHlo.after hostOps1 (W2 m ρ c) (Proc.devRef .tc main_v25) = _
  after_results
  rw [((W2_W1 m ρ c main_arg7 (by simp [Lp])).trans (W1_arg m ρ c main_arg7 (by simp)))]
  rfl

theorem W3_main_v21 : W3 m ρ c (Proc.devRef .tc main_v21) = Cert.Stages.biasRow (Cert.Stages.b0 (m ((c : Thread nD τ).loc main_arg8))) := by
  show StableHlo.after hostOps1 (W2 m ρ c) (Proc.devRef .tc main_v21) = _
  after_results
  rw [((W2_W1 m ρ c main_arg8 (by simp [Lp])).trans (W1_arg m ρ c main_arg8 (by simp)))]
  exact castRow _ _

theorem W4_main_v26 : W4 m ρ c (Proc.devRef .tc main_v26) = H1 m c := by
  refine (W4_arr m ρ c 6).trans ((Cert.KernelIdeal.Region1.final (V3 m ρ) c).trans ?_)
  show Cert.Stages.layerCore (W3 m ρ c (Proc.devRef .tc main_v5)) (W3 m ρ c (Proc.devRef .tc main_v15)) (W3 m ρ c (Proc.devRef .tc main_v23))
    (W3 m ρ c (Proc.devRef .tc main_v18)) (W3 m ρ c (Proc.devRef .tc main_v25)) (W3 m ρ c (Proc.devRef .tc main_v21)) = _
  rw [W3_main_v5 m ρ c, W3_main_v15 m ρ c, W3_main_v23 m ρ c, W3_main_v18 m ρ c, W3_main_v25 m ρ c, W3_main_v21 m ρ c]
  rfl

/-! ## Convolution 2: the host stretch before region 2, and the region -/

theorem W5_main_v26 : W5 m ρ c (Proc.devRef .tc main_v26) = H1 m c :=
  (by host_keeps hostOps2 : W5 m ρ c (Proc.devRef .tc main_v26) = W4 m ρ c (Proc.devRef .tc main_v26)).trans (W4_main_v26 m ρ c)

set_option maxHeartbeats 4000000 in
theorem W5_main_v36 : W5 m ρ c (Proc.devRef .tc main_v36) = Cert.Stages.agg (m ((c : Thread nD τ).loc main_arg1)) (H1 m c) := by
  show StableHlo.after hostOps2 (W4 m ρ c) (Proc.devRef .tc main_v36) = _
  after_results_simp
  rw [(W4_W1 m ρ c main_v1 (by simp [Lp])).trans (W1_v1 m ρ c), (W4_W1 m ρ c main_v3 (by simp [Lp])).trans (W1_v3 m ρ c), W4_main_v26 m ρ c]
  rfl

theorem W5_main_v44 : W5 m ρ c (Proc.devRef .tc main_v44) = Cert.Stages.w1 (m ((c : Thread nD τ).loc main_arg5)) := by
  show StableHlo.after hostOps2 (W4 m ρ c) (Proc.devRef .tc main_v44) = _
  after_results
  rw [((W4_W1 m ρ c main_arg5 (by simp [Lp])).trans (W1_arg m ρ c main_arg5 (by simp)))]
  rfl

theorem W5_main_v39 : W5 m ρ c (Proc.devRef .tc main_v39) = Cert.Stages.biasRow (Cert.Stages.b1 (m ((c : Thread nD τ).loc main_arg6))) := by
  show StableHlo.after hostOps2 (W4 m ρ c) (Proc.devRef .tc main_v39) = _
  after_results
  rw [((W4_W1 m ρ c main_arg6 (by simp [Lp])).trans (W1_arg m ρ c main_arg6 (by simp)))]
  exact castRow _ _

theorem W5_main_v46 : W5 m ρ c (Proc.devRef .tc main_v46) = Cert.Stages.w1 (m ((c : Thread nD τ).loc main_arg7)) := by
  show StableHlo.after hostOps2 (W4 m ρ c) (Proc.devRef .tc main_v46) = _
  after_results
  rw [((W4_W1 m ρ c main_arg7 (by simp [Lp])).trans (W1_arg m ρ c main_arg7 (by simp)))]
  rfl

theorem W5_main_v42 : W5 m ρ c (Proc.devRef .tc main_v42) = Cert.Stages.biasRow (Cert.Stages.b1 (m ((c : Thread nD τ).loc main_arg8))) := by
  show StableHlo.after hostOps2 (W4 m ρ c) (Proc.devRef .tc main_v42) = _
  after_results
  rw [((W4_W1 m ρ c main_arg8 (by simp [Lp])).trans (W1_arg m ρ c main_arg8 (by simp)))]
  exact castRow _ _

theorem W6_main_v47 : W6 m ρ c (Proc.devRef .tc main_v47) = H2 m c := by
  refine (W6_arr m ρ c 6).trans ((Cert.KernelIdeal.Region2.final (V5 m ρ) c).trans ?_)
  show Cert.Stages.layerCore (W5 m ρ c (Proc.devRef .tc main_v26)) (W5 m ρ c (Proc.devRef .tc main_v36)) (W5 m ρ c (Proc.devRef .tc main_v44))
    (W5 m ρ c (Proc.devRef .tc main_v39)) (W5 m ρ c (Proc.devRef .tc main_v46)) (W5 m ρ c (Proc.devRef .tc main_v42)) = _
  rw [W5_main_v26 m ρ c, W5_main_v36 m ρ c, W5_main_v44 m ρ c, W5_main_v39 m ρ c, W5_main_v46 m ρ c, W5_main_v42 m ρ c]
  rfl

/-! ## Convolution 3: the host stretch before region 3, and the region -/

theorem W7_main_v47 : W7 m ρ c (Proc.devRef .tc main_v47) = H2 m c :=
  (by host_keeps hostOps3 : W7 m ρ c (Proc.devRef .tc main_v47) = W6 m ρ c (Proc.devRef .tc main_v47)).trans (W6_main_v47 m ρ c)

set_option maxHeartbeats 4000000 in
theorem W7_main_v57 : W7 m ρ c (Proc.devRef .tc main_v57) = Cert.Stages.agg (m ((c : Thread nD τ).loc main_arg1)) (H2 m c) := by
  show StableHlo.after hostOps3 (W6 m ρ c) (Proc.devRef .tc main_v57) = _
  after_results_simp
  rw [(W6_W1 m ρ c main_v1 (by simp [Lp])).trans (W1_v1 m ρ c), (W6_W1 m ρ c main_v3 (by simp [Lp])).trans (W1_v3 m ρ c), W6_main_v47 m ρ c]
  rfl

theorem W7_main_v65 : W7 m ρ c (Proc.devRef .tc main_v65) = Cert.Stages.w2 (m ((c : Thread nD τ).loc main_arg5)) := by
  show StableHlo.after hostOps3 (W6 m ρ c) (Proc.devRef .tc main_v65) = _
  after_results
  rw [((W6_W1 m ρ c main_arg5 (by simp [Lp])).trans (W1_arg m ρ c main_arg5 (by simp)))]
  rfl

theorem W7_main_v60 : W7 m ρ c (Proc.devRef .tc main_v60) = Cert.Stages.biasRow (Cert.Stages.b2 (m ((c : Thread nD τ).loc main_arg6))) := by
  show StableHlo.after hostOps3 (W6 m ρ c) (Proc.devRef .tc main_v60) = _
  after_results
  rw [((W6_W1 m ρ c main_arg6 (by simp [Lp])).trans (W1_arg m ρ c main_arg6 (by simp)))]
  exact castRow _ _

theorem W7_main_v67 : W7 m ρ c (Proc.devRef .tc main_v67) = Cert.Stages.w2 (m ((c : Thread nD τ).loc main_arg7)) := by
  show StableHlo.after hostOps3 (W6 m ρ c) (Proc.devRef .tc main_v67) = _
  after_results
  rw [((W6_W1 m ρ c main_arg7 (by simp [Lp])).trans (W1_arg m ρ c main_arg7 (by simp)))]
  rfl

theorem W7_main_v63 : W7 m ρ c (Proc.devRef .tc main_v63) = Cert.Stages.biasRow (Cert.Stages.b2 (m ((c : Thread nD τ).loc main_arg8))) := by
  show StableHlo.after hostOps3 (W6 m ρ c) (Proc.devRef .tc main_v63) = _
  after_results
  rw [((W6_W1 m ρ c main_arg8 (by simp [Lp])).trans (W1_arg m ρ c main_arg8 (by simp)))]
  exact castRow _ _

theorem W8_main_v68 : W8 m ρ c (Proc.devRef .tc main_v68) = H3 m c := by
  refine (W8_arr m ρ c 6).trans ((Cert.KernelIdeal.Region3.final (V7 m ρ) c).trans ?_)
  show Cert.Stages.layerCore (W7 m ρ c (Proc.devRef .tc main_v47)) (W7 m ρ c (Proc.devRef .tc main_v57)) (W7 m ρ c (Proc.devRef .tc main_v65))
    (W7 m ρ c (Proc.devRef .tc main_v60)) (W7 m ρ c (Proc.devRef .tc main_v67)) (W7 m ρ c (Proc.devRef .tc main_v63)) = _
  rw [W7_main_v47 m ρ c, W7_main_v57 m ρ c, W7_main_v65 m ρ c, W7_main_v60 m ρ c, W7_main_v67 m ρ c, W7_main_v63 m ρ c]
  rfl

/-! ## The per-graph mean and the read-outs -/

set_option maxHeartbeats 4000000 in
theorem W9_main_v80 : W9 m ρ c (Proc.devRef .tc main_v80) = Cert.Stages.pool (m ((c : Thread nD τ).loc main_arg2)) (H3 m c) := by
  show StableHlo.after hostOps4 (W8 m ρ c) (Proc.devRef .tc main_v80) = _
  after_results_simp
  rw [((W8_W1 m ρ c main_arg2 (by simp [Lp])).trans (W1_arg m ρ c main_arg2 (by simp))), W8_main_v68 m ρ c]
  rfl
theorem W9_main_v81 : W9 m ρ c (Proc.devRef .tc main_v81) = Cert.Stages.biasRow (m ((c : Thread nD τ).loc main_arg10)) := by
  show StableHlo.after hostOps4 (W8 m ρ c) (Proc.devRef .tc main_v81) = _
  after_results
  rw [((W8_W1 m ρ c main_arg10 (by simp [Lp])).trans (W1_arg m ρ c main_arg10 (by simp)))]
  exact castRow _ _
theorem W9_main_v82 : W9 m ρ c (Proc.devRef .tc main_v82) = Cert.Stages.biasCell (m ((c : Thread nD τ).loc main_arg12)) := by
  show StableHlo.after hostOps4 (W8 m ρ c) (Proc.devRef .tc main_v82) = _
  after_results
  rw [((W8_W1 m ρ c main_arg12 (by simp [Lp])).trans (W1_arg m ρ c main_arg12 (by simp)))]
  exact castCell _ _
theorem W9_main_v83 : W9 m ρ c (Proc.devRef .tc main_v83) = Cert.Stages.biasCell (m ((c : Thread nD τ).loc main_arg14)) := by
  show StableHlo.after hostOps4 (W8 m ρ c) (Proc.devRef .tc main_v83) = _
  after_results
  rw [((W8_W1 m ρ c main_arg14 (by simp [Lp])).trans (W1_arg m ρ c main_arg14 (by simp)))]
  exact castCell _ _

theorem W10_main_v84_0 : W10 m ρ c (Proc.devRef .tc main_v84_0)
    = Cert.Stages.headOut (Cert.Stages.headHidden (Cert.Stages.pool (m ((c : Thread nD τ).loc main_arg2)) (H3 m c)) (m ((c : Thread nD τ).loc main_arg9)) (Cert.Stages.biasRow (m ((c : Thread nD τ).loc main_arg10))))
        (m ((c : Thread nD τ).loc main_arg11)) (Cert.Stages.biasCell (m ((c : Thread nD τ).loc main_arg12))) := by
  refine (W10_arr m ρ c 7).trans ((Cert.KernelIdeal.Region4.final7 (V9 m ρ) c).trans ?_)
  show Cert.Stages.headOut (Cert.Stages.headHidden (W9 m ρ c (Proc.devRef .tc main_v80)) (W9 m ρ c (Proc.devRef .tc main_arg9)) (W9 m ρ c (Proc.devRef .tc main_v81)))
    (W9 m ρ c (Proc.devRef .tc main_arg11)) (W9 m ρ c (Proc.devRef .tc main_v82)) = _
  rw [W9_main_v80 m ρ c, W9_main_v81 m ρ c, W9_main_v82 m ρ c, ((W9_W1 m ρ c main_arg9 (by simp [Lp])).trans (W1_arg m ρ c main_arg9 (by simp))), ((W9_W1 m ρ c main_arg11 (by simp [Lp])).trans (W1_arg m ρ c main_arg11 (by simp)))]

theorem W10_main_v84_1 : W10 m ρ c (Proc.devRef .tc main_v84_1)
    = Cert.Stages.headOut (Cert.Stages.headHidden (Cert.Stages.pool (m ((c : Thread nD τ).loc main_arg2)) (H3 m c)) (m ((c : Thread nD τ).loc main_arg9)) (Cert.Stages.biasRow (m ((c : Thread nD τ).loc main_arg10))))
        (m ((c : Thread nD τ).loc main_arg13)) (Cert.Stages.biasCell (m ((c : Thread nD τ).loc main_arg14))) := by
  refine (W10_arr m ρ c 8).trans ((Cert.KernelIdeal.Region4.final8 (V9 m ρ) c).trans ?_)
  show Cert.Stages.headOut (Cert.Stages.headHidden (W9 m ρ c (Proc.devRef .tc main_v80)) (W9 m ρ c (Proc.devRef .tc main_arg9)) (W9 m ρ c (Proc.devRef .tc main_v81)))
    (W9 m ρ c (Proc.devRef .tc main_arg13)) (W9 m ρ c (Proc.devRef .tc main_v83)) = _
  rw [W9_main_v80 m ρ c, W9_main_v81 m ρ c, W9_main_v83 m ρ c, ((W9_W1 m ρ c main_arg9 (by simp [Lp])).trans (W1_arg m ρ c main_arg9 (by simp))), ((W9_W1 m ρ c main_arg13 (by simp [Lp])).trans (W1_arg m ρ c main_arg13 (by simp)))]

/-- The features after the three convolutions are the reference's. -/
theorem H3_eq : H3 m c = Cert.Stages.features (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) := rfl

/-- The first result buffer at the last boundary is the network's first read-out of the launch contents of the arguments. -/
theorem result0 : W11 m ρ c (Proc.devRef .tc main_v85)
    = Cert.RefStages.readout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) := by
  show StableHlo.after hostOps5 (W10 m ρ c) (Proc.devRef .tc main_v85) = _
  after_results
  rw [W10_main_v84_0 m ρ c, H3_eq m c]
  rfl

/-- The second result buffer is the second read-out. -/
theorem result1 : W11 m ρ c (Proc.devRef .tc main_v86)
    = Cert.RefStages.readout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg13)) (m ((c : Thread nD τ).loc main_arg14)) := by
  show StableHlo.after hostOps5 (W10 m ρ c) (Proc.devRef .tc main_v86) = _
  after_results
  rw [W10_main_v84_1 m ρ c, H3_eq m c]
  rfl

end Cert.KernelIdeal.Fold

end
-- ==== Proof.lean ====
/-
  A graph network on 100000 nodes in 2000 graphs: an input projection, three graph-isomorphism convolutions
  h ← relu(relu((h + A h)·W₁ + b₁)·W₂ + b₂) with A h the sum over incoming edges, a per-graph mean, a shared hidden layer
  and two scalar read-outs.  The kernel program runs the dense parts as pipelined regions over tiles of 5000 node rows
  (one point for the read-outs) and leaves the neighbour sums and the mean to host operations; the reference is the same
  network as plain array operations.

  On the extended reals the two compute the same arrays.  A change of float format is the identity, a product
  accumulated into zero is the plain sum over the contracted index, and an entry of a dense stage depends only on its own
  node's row: so each tile's result is the whole-array stage restricted to the tile's rows, and the tiles cover the
  rows.  The gather, the scatter-adds and the division are the same host operations applied to equal arrays and are
  never opened.  No sum is split and no factor moved, so the finiteness of the inputs is not used.

  The frames of the two kernel programs are the generated ones; the reference's is its generated run.  The idealization
  rewrote nothing, so there is nothing to preserve.
-/
import proofs.«142797_j21234318312262_1_alg».proof.Defs
import proofs.«142797_j21234318312262_1_alg».proof.Proof.Gen.Kernel
import proofs.«142797_j21234318312262_1_alg».proof.Proof.Gen.Kernel.Frame
import proofs.«142797_j21234318312262_1_alg».proof.Proof.Gen.KernelIdeal
import proofs.«142797_j21234318312262_1_alg».proof.Proof.Gen.KernelIdeal.Frame
import proofs.«142797_j21234318312262_1_alg».proof.Proof.Gen.ReferenceIdeal
import proofs.«142797_j21234318312262_1_alg».proof.Proof.Gen.ReferenceIdeal.Run
import proofs.«142797_j21234318312262_1_alg».proof.Proof.Gen.Pre_finite_inputs
import proofs.«142797_j21234318312262_1_alg».proof.Proof.KRun
import proofs.«142797_j21234318312262_1_alg».proof.Proof.Fold
import proofs.«142797_j21234318312262_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with each result at the network's read-out of the launch contents of the arguments, which
    agree. -/
theorem algebraic : Cert.algebraic_KernelIdeal_ReferenceIdeal := by
  intro m ρ m' ρ' _ hagree
  refine ⟨fun c => Cert.RefStages.readout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.RefStages.readout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Fold.result0 m ρ c), (h c).2.1.trans (Cert.KernelIdeal.Fold.result1 m ρ c), (h c).2.2⟩)
      (Cert.KernelIdeal.KRun.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14⟩ := hagree c
      rw [Cert.RefStages.res0_eq, a0, a1, a2, a3, a4, a5, a6, a7, a8, a9, a10, a11, a12]
    · obtain ⟨a0, a1, a2, a3, a4, a5, a6, a7, a8, a9, a10, a11, a12, a13, a14⟩ := hagree c
      rw [Cert.RefStages.res1_eq, a0, a1, a2, a3, a4, a5, a6, a7, a8, a9, a10, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
